-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S1024x81920 : S_.BroadcastsInDim S1024x81920 (![] : Fin 0 → Fin S1024x81920.rank)
  reducesTo_S1024x81920_S_d0_1 : S1024x81920.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S4x81920 : S_.BroadcastsInDim S4x81920 (![] : Fin 0 → Fin S4x81920.rank)
  reducesTo_S4x81920_S_d0_1 : S4x81920.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S8x8 .f32) (main_arg8 : FVec F S8 .f32) (main_arg9 : FVec F S1x8 .f32) (main_arg10 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S4x81920 .f32 := Host.absf main_arg5
  let main_cst_8 : FVec F S_ .f32 := constant S_ .f32 0x7F800000#32
  let main_v25 : FVec F S4x81920 .f32 := broadcastInDim S4x81920 ![] bcast_S_S4x81920 main_cst_8
  let main_v26 : IVec S4x81920 1 := cmpf .olt main_v24 main_v25
  let main_c_9 : IVec S_ 1 := constantI S_ 1 1#1
  let main_v27 : IVec S_ 1 := (fun x v => Host.reduce IntOp.andi x v reducesTo_S4x81920_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x81920 .f32) (main_arg1 : FVec F S1024x81920 .f32) (main_arg2 : FVec F S1024x1 .f32) (main_arg3 : FVec F S1024x1 .f32) (main_arg4 : FVec F S1024x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) : IVec S_ 1 :=
  let main_v0 : FVec F S1024x81920 .f32 := Host.absf main_arg0
  let main_cst : FVec F S_ .f32 := constant S_ .f32 0x7F800000#32
  let main_v1 : FVec F S1024x81920 .f32 := broadcastInDim S1024x81920 ![] bcast_S_S1024x81920 main_cst
  let main_v2 : IVec S1024x81920 1 := cmpf .olt main_v0 main_v1
  let main_c : IVec S_ 1 := constantI S_ 1 1#1
  let main_v3 : IVec S_ 1 := (fun x v => Host.reduce IntOp.andi x v reducesTo_S1024x81920_S_d0_1 h_S_) main_v2 main_c
  let main_v4 : FVec F S1024x81920 .f32 := Host.absf main_arg1
  let main_cst_0 : FVec F S_ .f32 := constant S_ .f32 0x7F800000#32
  let main_v5 : FVec F S1024x81920 .f32 := broadcastInDim S1024x81920 ![] bcast_S_S1024x81920 main_cst_0
  let main_v6 : IVec S1024x81920 1 := cmpf .olt main_v4 main_v5
  let main_c_1 : IVec S_ 1 := constantI S_ 1 1#1
  let main_v7 : IVec S_ 1 := (fun x v => Host.reduce IntOp.andi x v reducesTo_S1024x81920_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_arg6 main_arg7 main_arg8 main_arg9 main_arg10 main_v13 main_v16
-- ==== Kernel.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S256x8192 : Shape := ⟨2, ![256, 8192]⟩
abbrev S4x8192 : Shape := ⟨2, ![4, 8192]⟩
abbrev S256x1 : Shape := ⟨2, ![256, 1]⟩
abbrev S256x4 : Shape := ⟨2, ![256, 4]⟩
abbrev S1x4 : Shape := ⟨2, ![1, 4]⟩
abbrev S8x4 : Shape := ⟨2, ![8, 4]⟩
abbrev S4x8 : Shape := ⟨2, ![4, 8]⟩
abbrev S256x8 : Shape := ⟨2, ![256, 8]⟩
abbrev S8x1 : Shape := ⟨2, ![8, 1]⟩
abbrev S1x1 : Shape := ⟨2, ![1, 1]⟩

abbrev nBuf : Space → Nat
  | .hbm => 12
  | .vmem => 21
  | .smem => 0
  | _ => 0

abbrev bufTy : (tb : Table) → Fin (tcTables nBuf tb) → BufTy
  | .hbm, ⟨0, _⟩ => ⟨S1024x81920, .f32⟩
  | .hbm, ⟨1, _⟩ => ⟨S1024x81920, .f32⟩
  | .hbm, ⟨2, _⟩ => ⟨S1024x1, .f32⟩
  | .hbm, ⟨3, _⟩ => ⟨S1024x1, .f32⟩
  | .hbm, ⟨4, _⟩ => ⟨S1024x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S1024x1, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S4x8192, .f32⟩
  | .local _ .vmem, ⟨5, _⟩ => ⟨S4x8192, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S4, .f32⟩
  | .local _ .vmem, ⟨13, _⟩ => ⟨S8x8, .f32⟩
  | .local _ .vmem, ⟨14, _⟩ => ⟨S8, .f32⟩
  | .local _ .vmem, ⟨15, _⟩ => ⟨S1x8, .f32⟩
  | .local _ .vmem, ⟨16, _⟩ => ⟨S1, .f32⟩
  | .local _ .vmem, ⟨17, _⟩ => ⟨S256x1, .f32⟩
  | .local _ .vmem, ⟨18, _⟩ => ⟨S256x1, .f32⟩
  | .local _ .vmem, ⟨19, _⟩ => ⟨S256x4, .f32⟩
  | .local _ .vmem, ⟨20, _⟩ => ⟨S256x4, .f32⟩
  | _, _ => ⟨S1024x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x8192_S256x8192_0_0 : ∀ a, (![0, 0] : Fin 2 → Nat) a + S256x8192.size a ≤ S256x8192.size a
  h_S256x8192 : 0 < S256x8192.numel
  inb_S4x8192_S4x8192_0_0 : ∀ a, (![0, 0] : Fin 2 → Nat) a + S4x8192.size a ≤ S4x8192.size a
  h_S4x8192 : 0 < S4x8192.numel
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  inb_S256x1_S256x1_0_0 : ∀ a, (![0, 0] : Fin 2 → Nat) a + S256x1.size a ≤ S256x1.size a
  h_S256x1 : 0 < S256x1.numel
  broadcasts_S256x1_S256x4 : S256x1.Broadcasts S256x4
  inb_S8x8_S8x8_0_0 : ∀ a, (![0, 0] : Fin 2 → Nat) a + S8x8.size a ≤ S8x8.size a
  h_S8x8 : 0 < S8x8.numel
  slices_S8x8_o0_0_S8x4 : S8x8.Slices ![0, 0] S8x4
  bitsLt_bf16_f32 : FTy.bits .bf16 < FTy.bits .f32
  slices_S8x8_o0_4_S8x4 : S8x8.Slices ![0, 4] S8x4
  transposes_S8x4_p1_0_S4x8 : S8x4.Transposes [1, 0] S4x8
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  dot_S256x8192_S4x8192_S256x4_1_1_0_0_n_n_wf : DotDims.WF S256x8192 S4x8192 S256x4 [1] [1] [0] [0] [] []
  dot_S256x4_S4x8_S256x8_1_0_0_1_n_n_wf : DotDims.WF S256x4 S4x8 S256x8 [1] [0] [0] [1] [] []
  dot_S256x8_S8x1_S256x1_1_0_0_1_n_n_wf : DotDims.WF S256x8 S8x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S1024x81920.size a
  hwx0_0 : ∀ i : grid0.Coords, EltTy.bits .f32 = 32 ∨ (Rect.block (s := S1024x81920) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S1024x81920.size a
  hwx0_1 : ∀ i : grid0.Coords, EltTy.bits .f32 = 32 ∨ (Rect.block (s := S1024x81920) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8192.size a ≤ S4x81920.size a
  hwx0_2 : ∀ i : grid0.Coords, EltTy.bits .f32 = 32 ∨ (Rect.block (s := S4x81920) S4x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .f32 = 32 ∨ (Rect.block (s := S1024x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S1024x1.size a
  hwx0_5 : ∀ i : grid0.Coords, EltTy.bits .f32 = 32 ∨ (Rect.block (s := S1024x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S1024x1.size a
  hwx0_11 : ∀ i : grid0.Coords, EltTy.bits .f32 = 32 ∨ (Rect.block (s := S1024x1) S256x1.size (cc0_transform_11 i) (hinb0_11 i)).WholeWords (EltTy.packing .f32)

variable [Facts₀]

def dot_S256x8192_S4x8192_S256x4_1_1_0_0_n_n : DotDims S256x8192 S4x8192 S256x4 where
  lhsContracting := [1]
  rhsContracting := [1]
  lhsNonContracting := [0]
  rhsNonContracting := [0]
  lhsBatch := []
  rhsBatch := []
  wf := dot_S256x8192_S4x8192_S256x4_1_1_0_0_n_n_wf
def dot_S256x4_S4x8_S256x8_1_0_0_1_n_n : DotDims S256x4 S4x8 S256x8 where
  lhsContracting := [1]
  rhsContracting := [0]
  lhsNonContracting := [0]
  rhsNonContracting := [1]
  lhsBatch := []
  rhsBatch := []
  wf := dot_S256x4_S4x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S1024x4 : Shape := ⟨2, ![1024, 4]⟩
abbrev S1x4 : Shape := ⟨2, ![1, 4]⟩
abbrev S1024x8 : Shape := ⟨2, ![1024, 8]⟩
abbrev S_ : Shape := ⟨0, ![]⟩
abbrev S8x1 : Shape := ⟨2, ![8, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S1024x81920, .f32⟩
  | .hbm, ⟨1, _⟩ => ⟨S1024x81920, .f32⟩
  | .hbm, ⟨2, _⟩ => ⟨S1024x1, .f32⟩
  | .hbm, ⟨3, _⟩ => ⟨S1024x1, .f32⟩
  | .hbm, ⟨4, _⟩ => ⟨S1024x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S1024x4, .f32⟩
  | .hbm, ⟨13, _⟩ => ⟨S1x4, .f32⟩
  | .hbm, ⟨14, _⟩ => ⟨S1024x4, .f32⟩
  | .hbm, ⟨15, _⟩ => ⟨S1024x4, .f32⟩
  | .hbm, ⟨16, _⟩ => ⟨S81920x4, .f32⟩
  | .hbm, ⟨17, _⟩ => ⟨S1024x4, .f32⟩
  | .hbm, ⟨18, _⟩ => ⟨S1x4, .f32⟩
  | .hbm, ⟨19, _⟩ => ⟨S1024x4, .f32⟩
  | .hbm, ⟨20, _⟩ => ⟨S1024x4, .f32⟩
  | .hbm, ⟨21, _⟩ => ⟨S1024x8, .f32⟩
  | .hbm, ⟨22, _⟩ => ⟨S1024x8, .f32⟩
  | .hbm, ⟨23, _⟩ => ⟨S1024x8, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x8, .f32⟩
  | .hbm, ⟨28, _⟩ => ⟨S1024x8, .f32⟩
  | .hbm, ⟨29, _⟩ => ⟨S1024x8, .f32⟩
  | .hbm, ⟨30, _⟩ => ⟨S1024x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x8, .f32⟩
  | .hbm, ⟨35, _⟩ => ⟨S1024x8, .f32⟩
  | .hbm, ⟨36, _⟩ => ⟨S_, .f32⟩
  | .hbm, ⟨37, _⟩ => ⟨S1024x8, .f32⟩
  | .hbm, ⟨38, _⟩ => ⟨S1024x8, .f32⟩
  | .hbm, ⟨39, _⟩ => ⟨S8x8, .f32⟩
  | .hbm, ⟨40, _⟩ => ⟨S1024x8, .f32⟩
  | .hbm, ⟨41, _⟩ => ⟨S1x8, .f32⟩
  | .hbm, ⟨42, _⟩ => ⟨S1024x8, .f32⟩
  | .hbm, ⟨43, _⟩ => ⟨S1024x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024x8, .f32⟩
  | .hbm, ⟨48, _⟩ => ⟨S1024x8, .f32⟩
  | .hbm, ⟨49, _⟩ => ⟨S_, .f32⟩
  | .hbm, ⟨50, _⟩ => ⟨S1024x8, .f32⟩
  | .hbm, ⟨51, _⟩ => ⟨S1024x8, .f32⟩
  | .hbm, ⟨52, _⟩ => ⟨S8x1, .f32⟩
  | .hbm, ⟨53, _⟩ => ⟨S1024x1, .f32⟩
  | .hbm, ⟨54, _⟩ => ⟨S1x1, .f32⟩
  | .hbm, ⟨55, _⟩ => ⟨S1024x1, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S1024x1, .f32⟩
  | .hbm, ⟨61, _⟩ => ⟨S1024x1, .f32⟩
  | .hbm, ⟨62, _⟩ => ⟨S_, .f32⟩
  | .hbm, ⟨63, _⟩ => ⟨S1024x1, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S_, .f32⟩
  | .hbm, ⟨69, _⟩ => ⟨S1024x1, .f32⟩
  | .hbm, ⟨70, _⟩ => ⟨S1024x1, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S_, .f32⟩
  | .hbm, ⟨84, _⟩ => ⟨S1024x1, .f32⟩
  | .hbm, ⟨85, _⟩ => ⟨S1024x1, .f32⟩
  | .hbm, ⟨86, _⟩ => ⟨S_, .f32⟩
  | .hbm, ⟨87, _⟩ => ⟨S1024x1, .f32⟩
  | .hbm, ⟨88, _⟩ => ⟨S1024x1, .f32⟩
  | .hbm, ⟨89, _⟩ => ⟨S1024x1, .f32⟩
  | _, _ => ⟨S1024x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  transposes_S4x81920_S81920x4_1_0 : S4x81920.Transposes [1, 0] S81920x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  concatenates_S1024x4_S1024x4_S1024x8_d1 : Shape.Concatenates [S1024x4, S1024x4] S1024x8 1
  bcast_S1024x1_S1024x8_0_1 : S1024x1.BroadcastsInDim S1024x8 (![0, 1] : Fin 2 → Fin S1024x8.rank)
  bcast_S_S1024x1 : S_.BroadcastsInDim S1024x1 (![] : Fin 0 → Fin S1024x1.rank)
  bcast_S_S1024x8 : S_.BroadcastsInDim S1024x8 (![] : Fin 0 → Fin S1024x8.rank)
  transposes_S8x8_S8x8_1_0 : S8x8.Transposes [1, 0] S8x8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  transposes_S1x8_S8x1_1_0 : S1x8.Transposes [1, 0] S8x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x81920_S81920x4_S1024x4_1_0_0_1_n_n_wf : DotDims.WF S1024x81920 S81920x4 S1024x4 [1] [0] [0] [1] [] []
  dot_S1024x8_S8x8_S1024x8_1_0_0_1_n_n_wf : DotDims.WF S1024x8 S8x8 S1024x8 [1] [0] [0] [1] [] []
  dot_S1024x8_S8x1_S1024x1_1_0_0_1_n_n_wf : DotDims.WF S1024x8 S8x1 S1024x1 [1] [0] [0] [1] [] []

variable [Facts₀]

def dot_S1024x81920_S81920x4_S1024x4_1_0_0_1_n_n : DotDims S1024x81920 S81920x4 S1024x4 where
  lhsContracting := [1]
  rhsContracting := [0]
  lhsNonContracting := [0]
  rhsNonContracting := [1]
  lhsBatch := []
  rhsBatch := []
  wf := dot_S1024x81920_S81920x4_S1024x4_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.Pieces.lean ====
/-
  What one grid step leaves behind, as values.

  The grid has a batch axis (four blocks of 256 positions) and a feature axis (ten blocks of 8192 features). Two
  256 × 4 accumulators are carried along the feature axis: one for the white feature rows and one for the black ones.
  At every step each accumulator receives its previous contents plus the product of the step's 256 × 8192 feature block
  with the step's 4 × 8192 block of first-layer weights; at the first feature block the previous contents are the zero
  block the step has just stored, and at the last feature block the step goes on to evaluate the rest of the network on
  the finished accumulators and stores the 256 losses. The lemmas below read those three kinds of step off the stores
  each one performs: each buffer ends holding the value of its one covering store, whose loads read whole buffers.
-/
import proofs.«136821_j16990890623528_2_alg».proof.Proof.Gen.KernelIdeal.Value
import Idealize.ShloMosaic.Lib.Pipeline.Value
import Idealize.ShloMosaic.Lib.Tactic
noncomputable section
open Idealize.ShloMosaic Idealize.ShloMosaic.TcCoe Idealize.SL.Sem
namespace Cert.KernelIdeal.Body
open Cert.KernelIdeal Cert.KernelIdeal.Gen
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- At the first feature block the white accumulator ends at the zero block plus the step's product. -/
theorem accw_first (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : cond0_0 i) (hc1 : ¬cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) :
    sout0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 = k0_pay3 k0_pay1 x0 x2 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10)]
  unfold kernelRun0_A
  dsimp only
  sl_unfold_words
  rw [View.canon_cons_unit_zero (S := S256x4) hz2, View.readCov_unit_zero (S := S256x4) _ hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At the first feature block the black accumulator ends at the zero block plus the step's product. -/
theorem accb_first (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : cond0_0 i) (hc1 : ¬cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) :
    sout0_A_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 = k0_pay4 k0_pay2 x1 x2 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10)]
  unfold kernelRun0_A
  dsimp only
  sl_unfold_words
  rw [View.canon_cons_unit_zero (S := S256x4) hz2, View.readCov_unit_zero (S := S256x4) _ hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At an inner feature block the white accumulator ends at what it held plus the step's product. -/
theorem accw_mid (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : ¬cond0_0 i) (hc1 : ¬cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) (xs0 xs1 : Vec F S256x4 .f32) :
    sout0_B_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1 = k0_pay3 xs0 x0 x2 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1)]
  unfold kernelRun0_B
  dsimp only
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At an inner feature block the black accumulator ends at what it held plus the step's product. -/
theorem accb_mid (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : ¬cond0_0 i) (hc1 : ¬cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) (xs0 xs1 : Vec F S256x4 .f32) :
    sout0_B_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1 = k0_pay4 xs1 x1 x2 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1)]
  unfold kernelRun0_B
  dsimp only
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At the last feature block the white accumulator ends at what it held plus the step's product. -/
theorem accw_last (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : ¬cond0_0 i) (hc1 : cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) (xs0 xs1 : Vec F S256x4 .f32) :
    sout0_C_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1 = k0_pay3 xs0 x0 x2 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At the last feature block the black accumulator ends at what it held plus the step's product. -/
theorem accb_last (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : ¬cond0_0 i) (hc1 : cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) (xs0 xs1 : Vec F S256x4 .f32) :
    sout0_C_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1 = k0_pay4 xs1 x1 x2 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

/-- At the last feature block the output block ends at the rest of the network evaluated on the two accumulators as
    this step has just updated them: the second layer's two half-products, the output unit and the loss. -/
theorem loss_last (c : Dev nD) (i : grid0.Coords)
    (a2 : Memref sig .tc .vmem S256x8192 .f32) (h2 : a2.IsWhole) (a3 : Memref sig .tc .vmem S256x8192 .f32) (h3 : a3.IsWhole)
    (a4 : Memref sig .tc .vmem S4x8192 .f32) (h4 : a4.IsWhole) (a5 : Memref sig .tc .vmem S256x1 .f32) (h5 : a5.IsWhole)
    (a6 : Memref sig .tc .vmem S256x1 .f32) (h6 : a6.IsWhole) (a7 : Memref sig .tc .vmem S256x1 .f32) (h7 : a7.IsWhole)
    (a8 : Memref sig .tc .vmem S4 .f32) (h8 : a8.IsWhole) (a9 : Memref sig .tc .vmem S8x8 .f32) (h9 : a9.IsWhole)
    (a10 : Memref sig .tc .vmem S8 .f32) (h10 : a10.IsWhole) (a11 : Memref sig .tc .vmem S1x8 .f32) (h11 : a11.IsWhole)
    (a12 : Memref sig .tc .vmem S1 .f32) (h12 : a12.IsWhole) (a13 : Memref sig .tc .vmem S256x1 .f32) (h13 : a13.IsWhole)
    (a14 : Memref sig .tc .vmem S256x4 .f32) (h14 : a14.IsWhole) (a15 : Memref sig .tc .vmem S256x4 .f32) (h15 : a15.IsWhole)
    (hc0 : ¬cond0_0 i) (hc1 : cond0_1 i) (x0 x1 : Vec F S256x8192 .f32) (x2 : Vec F S4x8192 .f32) (x3 x4 x5 : Vec F S256x1 .f32) (x6 : Vec F S4 .f32)
    (x7 : Vec F S8x8 .f32) (x8 : Vec F S8 .f32) (x9 : Vec F S1x8 .f32) (x10 : Vec F S1 .f32) (xs0 xs1 : Vec F S256x4 .f32) :
    out0_C_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1
      = k0_pay5 (k0_pay8 (k0_pay3 xs0 x0 x2) x6 (k0_pay4 xs1 x1 x2) x6 x3 x7)
          (k0_pay9 (k0_pay3 xs0 x0 x2) x6 (k0_pay4 xs1 x1 x2) x6 x3) (k0_pay10 x7) x8 x9 x10 x4 x5 := by
  unfold out0_C_11
  rw [View.read_writes_eq_canon _ _ _ (cover0_C_11 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 xs0 xs1)]
  unfold kernelRun0_C
  dsimp only
  sl_unfold_words
  rw [View.canon_unit_zero hz2]
  simp only [View.readCov_unit_zero (S := S256x4) _ hz2, View.readAt_eq_ld, h2.read_unread, h3.read_unread, h4.read_unread, h5.read_unread, h6.read_unread, h7.read_unread, h8.read_unread, h9.read_unread, h10.read_unread, h11.read_unread, h12.read_unread, h14.read_unread, h15.read_unread, View.ld_unit_zero (S := S256x4) hz2, View.ld_unit_zero (S := S256x8192) hz2, View.ld_unit_zero (S := S4x8192) hz2, View.ld_unit_zero (S := S256x1) hz2, View.ld_unit_zero (S := S8x8) hz2, View.ld_unit_zero (S := S1x8) hz2, View.ld_unit_zero (S := S4) hz1, View.ld_unit_zero (S := S8) hz1, View.ld_unit_zero (S := S1) hz1]

end Cert.KernelIdeal.Body
end
-- ==== Proof.Fold.lean ====
/-
  The two accumulators after any grid step, as sums.

  Within one batch block the feature axis is walked from its first block to its last. The accumulator is reset to the
  zero block at the first feature block and receives one product per step, so after step `t` it holds the zero block
  plus the sum of the products of the steps from the start of `t`'s batch block up to `t` — a finite sum in the steps'
  order, read off the step-by-step description of the carried buffer without enumerating the forty steps.
-/
import proofs.«136821_j16990890623528_2_alg».proof.Proof.Pieces
import proofs.«136821_j16990890623528_2_alg».proof.Proof.Gen.KernelIdeal.Value
import Idealize.ShloMosaic.Lib.Pipeline.Value
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Cert.KernelIdeal.Body

variable (m : (ℓ : Loc nD τ sig) → Buf (Elt Ideal) ℓ)

/-- The product step `n` adds to the white accumulator: its white feature tile against its weight tile (zero past the grid, where it is never read). -/
def addW (c : Dev nD) (n : ℕ) : S256x4.Idx → EReal := fun i =>
  if h : n < cfg0.N then
    matmul (φ₁ := .f32) (φ₂ := .f32) dot_S256x8192_S4x8192_S256x4_1_1_0_0_n_n none (iblk m c 0 ⟨n, h⟩ : FVec Ideal S256x8192 .f32) (iblk m c 2 ⟨n, h⟩ : FVec Ideal S4x8192 .f32) (constant (F := Ideal) S256x4 .f32 0x00000000#32) i
  else 0

/-- One step of the white accumulator, entry by entry: what it held plus the step's product. -/
theorem stepW_eq (acc : FVec Ideal S256x4 .f32) (l : FVec Ideal S256x8192 .f32) (r : FVec Ideal S4x8192 .f32) (i : S256x4.Idx) :
    k0_pay3 acc l r i = acc i + matmul (φ₁ := .f32) (φ₂ := .f32) dot_S256x8192_S4x8192_S256x4_1_1_0_0_n_n none l r (constant (F := Ideal) S256x4 .f32 0x00000000#32) i := by
  unfold k0_pay3
  simp only [shapeCast_self]
  rfl

/-- The white accumulator after step `t`: the zero block plus the products of the steps of `t`'s batch block up to `t`. -/
theorem accW_eq (c : Dev nD) (t : Fin cfg0.N) (i : S256x4.Idx) :
    (outsAt0 m c t.val t.isLt).2.1 i
      = (k0_pay1 (F := Ideal)) i + ∑ s ∈ Finset.range (t.val % 10 + 1), addW m c (10 * (t.val / 10) + s) i := by
  rw [Value.soutsAt0_0_eq m c t]
  refine Pipeline.accAt_add_apply (fun n h => Value.scAt0_0 m c n h _) (Value.scAt0_0 m c) (k0_pay1 (F := Ideal)) (addW m c)
    (10 * (t.val / 10)) 9 ?_ ?_ (t.val % 10) (by omega) _ i
  · intro h i
    have h0 : (10 * (t.val / 10)) % 10 = 0 := Nat.mul_mod_right _ _
    unfold Value.scAt0_0
    rw [dif_pos h0, dif_neg (by omega), accw_first, stepW_eq]
    unfold addW
    rw [dif_pos h]
  · intro n h acc i hlo hhi
    have h0 : ¬ n % 10 = 0 := by omega
    unfold Value.scAt0_0
    rw [dif_neg h0]
    by_cases h1 : n % 10 = 9
    · rw [dif_pos h1, accw_last, stepW_eq]
      unfold addW
      rw [dif_pos h]
    · rw [dif_neg h1, accw_mid, stepW_eq]
      unfold addW
      rw [dif_pos h]

/-- The product step `n` adds to the black accumulator: its black feature tile against its weight tile (zero past the grid, where it is never read). -/
def addB (c : Dev nD) (n : ℕ) : S256x4.Idx → EReal := fun i =>
  if h : n < cfg0.N then
    matmul (φ₁ := .f32) (φ₂ := .f32) dot_S256x8192_S4x8192_S256x4_1_1_0_0_n_n none (iblk m c 1 ⟨n, h⟩ : FVec Ideal S256x8192 .f32) (iblk m c 2 ⟨n, h⟩ : FVec Ideal S4x8192 .f32) (constant (F := Ideal) S256x4 .f32 0x00000000#32) i
  else 0

/-- One step of the black accumulator, entry by entry: what it held plus the step's product. -/
theorem stepB_eq (acc : FVec Ideal S256x4 .f32) (l : FVec Ideal S256x8192 .f32) (r : FVec Ideal S4x8192 .f32) (i : S256x4.Idx) :
    k0_pay4 acc l r i = acc i + matmul (φ₁ := .f32) (φ₂ := .f32) dot_S256x8192_S4x8192_S256x4_1_1_0_0_n_n none l r (constant (F := Ideal) S256x4 .f32 0x00000000#32) i := by
  unfold k0_pay4
  simp only [shapeCast_self]
  rfl

/-- The black accumulator after step `t`: the zero block plus the products of the steps of `t`'s batch block up to `t`. -/
theorem accB_eq (c : Dev nD) (t : Fin cfg0.N) (i : S256x4.Idx) :
    (outsAt0 m c t.val t.isLt).2.2 i
      = (k0_pay2 (F := Ideal)) i + ∑ s ∈ Finset.range (t.val % 10 + 1), addB m c (10 * (t.val / 10) + s) i := by
  rw [Value.soutsAt0_1_eq m c t]
  refine Pipeline.accAt_add_apply (fun n h => Value.scAt0_1 m c n h _) (Value.scAt0_1 m c) (k0_pay2 (F := Ideal)) (addB m c)
    (10 * (t.val / 10)) 9 ?_ ?_ (t.val % 10) (by omega) _ i
  · intro h i
    have h0 : (10 * (t.val / 10)) % 10 = 0 := Nat.mul_mod_right _ _
    unfold Value.scAt0_1
    rw [dif_pos h0, dif_neg (by omega), accb_first, stepB_eq]
    unfold addB
    rw [dif_pos h]
  · intro n h acc i hlo hhi
    have h0 : ¬ n % 10 = 0 := by omega
    unfold Value.scAt0_1
    rw [dif_neg h0]
    by_cases h1 : n % 10 = 9
    · rw [dif_pos h1, accb_last, stepB_eq]
      unfold addB
      rw [dif_pos h]
    · rw [dif_neg h1, accb_mid, stepB_eq]
      unfold addB
      rw [dif_pos h]

end Cert.KernelIdeal.Acc

end
-- ==== Proof.Blocks.lean ====
/-
  What each window of the pipeline stages at a grid step, as entries of the launch arrays.

  Step `t` of the forty is batch block `b = t / 10` and feature block `s = t % 10`. The two feature arrays are staged by
  256 × 8192 tiles at `(b, s)`, the first-layer weights by 4 × 8192 tiles at `(0, s)`, the per-position columns (side to
  move, score, result) by 256 × 1 tiles at `(b, 0)`, and the small parameter arrays whole. An entry of a staged block
  is the array's entry at block index × block size + the coordinate inside the block.
-/
import proofs.«136821_j16990890623528_2_alg».proof.Proof.Gen.KernelIdeal.Frame.Runs
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps at step `t`, read off once over the grid. -/
structure IdxFacts (t : Fin cfg0.N) : Prop where
  w0_0 : win0_0.index t (0 : Fin 2) = t.val / 10
  w0_1 : win0_0.index t (1 : Fin 2) = t.val % 10
  w1_0 : win0_1.index t (0 : Fin 2) = t.val / 10
  w1_1 : win0_1.index t (1 : Fin 2) = t.val % 10
  w2_0 : win0_2.index t (0 : Fin 2) = 0
  w2_1 : win0_2.index t (1 : Fin 2) = t.val % 10
  w3_0 : win0_3.index t (0 : Fin 2) = t.val / 10
  w3_1 : win0_3.index t (1 : Fin 2) = 0
  w4_0 : win0_4.index t (0 : Fin 2) = t.val / 10
  w4_1 : win0_4.index t (1 : Fin 2) = 0
  w5_0 : win0_5.index t (0 : Fin 2) = t.val / 10
  w5_1 : win0_5.index t (1 : Fin 2) = 0
  w6_0 : win0_6.index t (0 : Fin 1) = 0
  w7_0 : win0_7.index t (0 : Fin 2) = 0
  w7_1 : win0_7.index t (1 : Fin 2) = 0
  w8_0 : win0_8.index t (0 : Fin 1) = 0
  w9_0 : win0_9.index t (0 : Fin 2) = 0
  w9_1 : win0_9.index t (1 : Fin 2) = 0
  w10_0 : win0_10.index t (0 : Fin 1) = 0
  w11_0 : win0_11.index t (0 : Fin 2) = t.val / 10
  w11_1 : win0_11.index t (1 : Fin 2) = 0

theorem idx_all : ∀ t : Fin cfg0.N,
      win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = 0 ∧ win0_2.index t (1 : Fin 2) = t.val % 10
    ∧ win0_3.index t (0 : Fin 2) = t.val / 10 ∧ win0_3.index t (1 : Fin 2) = 0
    ∧ win0_4.index t (0 : Fin 2) = t.val / 10 ∧ win0_4.index t (1 : Fin 2) = 0
    ∧ win0_5.index t (0 : Fin 2) = t.val / 10 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val / 10 ∧ win0_11.index t (1 : Fin 2) = 0 :=
  (by decide +kernel : ∀ t : Fin grid0.N, _)

theorem idx_facts (t : Fin cfg0.N) : IdxFacts t := by
  obtain ⟨h_w0_0, h_w0_1, h_w1_0, h_w1_1, h_w2_0, h_w2_1, h_w3_0, h_w3_1, h_w4_0, h_w4_1, h_w5_0, h_w5_1, h_w6_0, h_w7_0, h_w7_1, h_w8_0, h_w9_0, h_w9_1, h_w10_0, h_w11_0, h_w11_1⟩ := idx_all t
  exact ⟨h_w0_0, h_w0_1, h_w1_0, h_w1_1, h_w2_0, h_w2_1, h_w3_0, h_w3_1, h_w4_0, h_w4_1, h_w5_0, h_w5_1, h_w6_0, h_w7_0, h_w7_1, h_w8_0, h_w9_0, h_w9_1, h_w10_0, h_w11_0, h_w11_1⟩

/-- The white feature tile at step `(b, s)`: rows `256 b + p`, features `8192 s + q`. -/
theorem white_apply (c : Dev nD) (t : Fin cfg0.N) (b : Fin 4) (s : Fin 10) (ht : t.val = 10 * b.val + s.val)
    (p : Fin 256) (q : Fin 8192) :
    (iblk m c 0 t : Vec F S256x8192 .f32) (ix2 p q)
      = m ((c : Thread nD τ).loc main_arg0) (ix2 ⟨256 * b.val + p.val, by have := b.isLt; have := p.isLt; omega⟩ ⟨8192 * s.val + q.val, by have := s.isLt; have := q.isLt; omega⟩) := by
  have e := idx_facts t
  have hb : t.val / 10 = b.val := by have := s.isLt; omega
  have hs : t.val % 10 = s.val := by have := s.isLt; omega
  unfold iblk
  rw [View.read_apply]
  show V m c main_arg0 _ = m (c.tc.loc main_arg0) _
  unfold V
  congr 1
  funext a
  apply Fin.ext
  match a with
  | ⟨0, _⟩ => show win0_0.index t 0 * 256 + 1 * p.val = 256 * b.val + p.val; rw [e.w0_0, hb]; omega
  | ⟨1, _⟩ => show win0_0.index t 1 * 8192 + 1 * q.val = 8192 * s.val + q.val; rw [e.w0_1, hs]; omega

/-- The black feature tile at step `(b, s)`. -/
theorem black_apply (c : Dev nD) (t : Fin cfg0.N) (b : Fin 4) (s : Fin 10) (ht : t.val = 10 * b.val + s.val)
    (p : Fin 256) (q : Fin 8192) :
    (iblk m c 1 t : Vec F S256x8192 .f32) (ix2 p q)
      = m ((c : Thread nD τ).loc main_arg1) (ix2 ⟨256 * b.val + p.val, by have := b.isLt; have := p.isLt; omega⟩ ⟨8192 * s.val + q.val, by have := s.isLt; have := q.isLt; omega⟩) := by
  have e := idx_facts t
  have hb : t.val / 10 = b.val := by have := s.isLt; omega
  have hs : t.val % 10 = s.val := by have := s.isLt; omega
  unfold iblk
  rw [View.read_apply]
  show V m c main_arg1 _ = m (c.tc.loc main_arg1) _
  unfold V
  congr 1
  funext a
  apply Fin.ext
  match a with
  | ⟨0, _⟩ => show win0_1.index t 0 * 256 + 1 * p.val = 256 * b.val + p.val; rw [e.w1_0, hb]; omega
  | ⟨1, _⟩ => show win0_1.index t 1 * 8192 + 1 * q.val = 8192 * s.val + q.val; rw [e.w1_1, hs]; omega

/-- The first-layer weight tile at feature block `s`: all four rows, features `8192 s + q`. -/
theorem weight_apply (c : Dev nD) (t : Fin cfg0.N) (b : Fin 4) (s : Fin 10) (ht : t.val = 10 * b.val + s.val)
    (j : Fin 4) (q : Fin 8192) :
    (iblk m c 2 t : Vec F S4x8192 .f32) (ix2 j q)
      = m ((c : Thread nD τ).loc main_arg5) (ix2 j ⟨8192 * s.val + q.val, by have := s.isLt; have := q.isLt; omega⟩) := by
  have e := idx_facts t
  have hs : t.val % 10 = s.val := by have := s.isLt; omega
  unfold iblk
  rw [View.read_apply]
  show V m c main_arg5 _ = m (c.tc.loc main_arg5) _
  unfold V
  congr 1
  funext a
  apply Fin.ext
  match a with
  | ⟨0, _⟩ => show win0_2.index t 0 * 4 + 1 * j.val = j.val; rw [e.w2_0]; omega
  | ⟨1, _⟩ => show win0_2.index t 1 * 8192 + 1 * q.val = 8192 * s.val + q.val; rw [e.w2_1, hs]; omega

/-- The side-to-move column tile of batch block `b`: rows `256 b + p`. -/
theorem turn_col (c : Dev nD) (t : Fin cfg0.N) (b : Fin 4) (s : Fin 10) (ht : t.val = 10 * b.val + s.val) (p : Fin 256) :
    (iblk m c 3 t : Vec F S256x1 .f32) (ix2 p (0 : Fin 1))
      = m ((c : Thread nD τ).loc main_arg2) (ix2 ⟨256 * b.val + p.val, by have := b.isLt; have := p.isLt; omega⟩ (0 : Fin 1)) := by
  have e := idx_facts t
  have hb : t.val / 10 = b.val := by have := s.isLt; omega
  unfold iblk
  rw [View.read_apply]
  show V m c main_arg2 _ = m (c.tc.loc main_arg2) _
  unfold V
  congr 1
  funext a
  apply Fin.ext
  match a with
  | ⟨0, _⟩ => show win0_3.index t 0 * 256 + 1 * p.val = 256 * b.val + p.val; rw [e.w3_0, hb]; omega
  | ⟨1, _⟩ => show win0_3.index t 1 * 1 + 1 * 0 = 0; rw [e.w3_1]

/-- The score column tile of batch block `b`: rows `256 b + p`. -/
theorem score_col (c : Dev nD) (t : Fin cfg0.N) (b : Fin 4) (s : Fin 10) (ht : t.val = 10 * b.val + s.val) (p : Fin 256) :
    (iblk m c 4 t : Vec F S256x1 .f32) (ix2 p (0 : Fin 1))
      = m ((c : Thread nD τ).loc main_arg3) (ix2 ⟨256 * b.val + p.val, by have := b.isLt; have := p.isLt; omega⟩ (0 : Fin 1)) := by
  have e := idx_facts t
  have hb : t.val / 10 = b.val := by have := s.isLt; omega
  unfold iblk
  rw [View.read_apply]
  show V m c main_arg3 _ = m (c.tc.loc main_arg3) _
  unfold V
  congr 1
  funext a
  apply Fin.ext
  match a with
  | ⟨0, _⟩ => show win0_4.index t 0 * 256 + 1 * p.val = 256 * b.val + p.val; rw [e.w4_0, hb]; omega
  | ⟨1, _⟩ => show win0_4.index t 1 * 1 + 1 * 0 = 0; rw [e.w4_1]

/-- The result column tile of batch block `b`: rows `256 b + p`. -/
theorem result_col (c : Dev nD) (t : Fin cfg0.N) (b : Fin 4) (s : Fin 10) (ht : t.val = 10 * b.val + s.val) (p : Fin 256) :
    (iblk m c 5 t : Vec F S256x1 .f32) (ix2 p (0 : Fin 1))
      = m ((c : Thread nD τ).loc main_arg4) (ix2 ⟨256 * b.val + p.val, by have := b.isLt; have := p.isLt; omega⟩ (0 : Fin 1)) := by
  have e := idx_facts t
  have hb : t.val / 10 = b.val := by have := s.isLt; omega
  unfold iblk
  rw [View.read_apply]
  show V m c main_arg4 _ = m (c.tc.loc main_arg4) _
  unfold V
  congr 1
  funext a
  apply Fin.ext
  match a with
  | ⟨0, _⟩ => show win0_5.index t 0 * 256 + 1 * p.val = 256 * b.val + p.val; rw [e.w5_0, hb]; omega
  | ⟨1, _⟩ => show win0_5.index t 1 * 1 + 1 * 0 = 0; rw [e.w5_1]

/-- The first-layer bias is staged whole. -/
theorem bias0_whole (c : Dev nD) (t : Fin cfg0.N) :
    (iblk m c 6 t : Vec F S4 .f32) = m ((c : Thread nD τ).loc main_arg6) := by
  have e := idx_facts t
  funext y
  unfold iblk
  rw [View.read_apply]
  show V m c main_arg6 _ = m (c.tc.loc main_arg6) _
  unfold V
  congr 1
  funext a
  apply Fin.ext
  match a with
  | ⟨0, _⟩ => show win0_6.index t 0 * 4 + 1 * (y 0).val = (y 0).val; rw [e.w6_0]; omega

/-- The second layer's weights are staged whole. -/
theorem weights1_whole (c : Dev nD) (t : Fin cfg0.N) :
    (iblk m c 7 t : Vec F S8x8 .f32) = m ((c : Thread nD τ).loc main_arg7) := by
  have e := idx_facts t
  funext y
  unfold iblk
  rw [View.read_apply]
  show V m c main_arg7 _ = m (c.tc.loc main_arg7) _
  unfold V
  congr 1
  funext a
  apply Fin.ext
  match a with
  | ⟨0, _⟩ => show win0_7.index t 0 * 8 + 1 * (y 0).val = (y 0).val; rw [e.w7_0]; omega
  | ⟨1, _⟩ => show win0_7.index t 1 * 8 + 1 * (y 1).val = (y 1).val; rw [e.w7_1]; omega

/-- The second layer's bias is staged whole. -/
theorem bias1_whole (c : Dev nD) (t : Fin cfg0.N) :
    (iblk m c 8 t : Vec F S8 .f32) = m ((c : Thread nD τ).loc main_arg8) := by
  have e := idx_facts t
  funext y
  unfold iblk
  rw [View.read_apply]
  show V m c main_arg8 _ = m (c.tc.loc main_arg8) _
  unfold V
  congr 1
  funext a
  apply Fin.ext
  match a with
  | ⟨0, _⟩ => show win0_8.index t 0 * 8 + 1 * (y 0).val = (y 0).val; rw [e.w8_0]; omega

/-- The output unit's weights are staged whole. -/
theorem weights2_whole (c : Dev nD) (t : Fin cfg0.N) :
    (iblk m c 9 t : Vec F S1x8 .f32) = m ((c : Thread nD τ).loc main_arg9) := by
  have e := idx_facts t
  funext y
  unfold iblk
  rw [View.read_apply]
  show V m c main_arg9 _ = m (c.tc.loc main_arg9) _
  unfold V
  congr 1
  funext a
  apply Fin.ext
  match a with
  | ⟨0, _⟩ => show win0_9.index t 0 * 1 + 1 * (y 0).val = (y 0).val; rw [e.w9_0]; omega
  | ⟨1, _⟩ => show win0_9.index t 1 * 8 + 1 * (y 1).val = (y 1).val; rw [e.w9_1]; omega

/-- The output unit's bias is staged whole. -/
theorem bias2_whole (c : Dev nD) (t : Fin cfg0.N) :
    (iblk m c 10 t : Vec F S1 .f32) = m ((c : Thread nD τ).loc main_arg10) := by
  have e := idx_facts t
  funext y
  unfold iblk
  rw [View.read_apply]
  show V m c main_arg10 _ = m (c.tc.loc main_arg10) _
  unfold V
  congr 1
  funext a
  apply Fin.ext
  match a with
  | ⟨0, _⟩ => show win0_10.index t 0 * 1 + 1 * (y 0).val = (y 0).val; rw [e.w10_0]; omega

end Cert.KernelIdeal.Blocks

end
-- ==== Proof.Spec.lean ====
/-
  The function both programs compute, as mathematics over the extended reals, and the two summation laws that join
  their two spellings of it.

  A position is scored from two feature rows `x` (white) and `y` (black) of 81920 entries. The first layer is affine:
  `w j = (∑ k, x k · W0 j k) + b0 j` and `v j = (∑ k, y k · W0 j k) + b0 j` for `j < 4`. The side to move `t` blends the
  two perspectives, `t · w j + (1 - t) · v j` and `t · v j + (1 - t) · w j`, each clipped to `[0, 1]`; these eight numbers
  feed a second affine layer of eight clipped units, whose outputs feed one affine output unit. The loss is the squared
  difference of the logistic of that output over 400 and the logistic of the recorded score over 400 (the second loss
  term carries the weight zero).

  One program forms each first-layer sum over the 81920 features in ten consecutive blocks of 8192 and the second
  layer's sum over eight inputs as a sum over the first four plus a sum over the last four; the other forms each sum in
  one piece. Addition of extended reals is commutative and associative, so the results agree with no finiteness
  assumption: `sum_blocks` and `Fin.sum_univ_add` are the only laws used.
-/
import Idealize.ShloMosaic.PureOps.Ideal.Laws
import Idealize.ShloMosaic.Lib.ValueIdx

noncomputable section

open Idealize.ShloMosaic

namespace Cert.LossSpec

/-! ## The three float words the programs print, as extended reals -/

/-- The word of `0.0`. -/
abbrev zeroW : EReal := Ideal.ofBits .f32 0x00000000#32
/-- The word of `1.0`. -/
abbrev oneW : EReal := Ideal.ofBits .f32 0x3F800000#32
/-- The word of `400.0`, the scale both logistics divide by. It is the same word on both sides and is never evaluated. -/
abbrev scaleW : EReal := Ideal.ofBits .f32 0x43C80000#32

/-- The word of `1.0` denotes the real number one. -/
theorem oneW_eq : oneW = 1 := IdealRules.sign_bit.ideal_onePat .f32

/-! ## The network on one position -/

/-- Clipping to the unit interval: `min 1 (max 0 x)`. -/
def clip01 (x : EReal) : EReal := min oneW (max zeroW x)

/-- The side to move `t` blends two perspectives: `t · a + (1 - t) · b`. -/
def blend (t a b : EReal) : EReal := t * a + (oneW - t) * b

/-- The logistic of a centipawn-like quantity over the scale 400. -/
def sigm (x : EReal) : EReal := Ideal.logistic (Ideal.div x scaleW)

/-- Unit `n` of the second layer, its eight inputs taken as the four blended-and-clipped values of one perspective
    followed by the four of the other. -/
def layer2 (t : EReal) (w v : Fin 4 → EReal) (W1 : Fin 8 → Fin 8 → EReal) (b1 : Fin 8 → EReal) (n : Fin 8) : EReal :=
  clip01 ((∑ j : Fin 4, clip01 (blend t (w j) (v j)) * W1 n (Fin.castAdd 4 j)
      + ∑ j : Fin 4, clip01 (blend t (v j) (w j)) * W1 n (Fin.natAdd 4 j)) + b1 n)

/-- The output unit. -/
def outUnit (t : EReal) (w v : Fin 4 → EReal) (W1 : Fin 8 → Fin 8 → EReal) (b1 : Fin 8 → EReal) (W2 : Fin 8 → EReal)
    (b2 : EReal) : EReal :=
  (∑ n : Fin 8, layer2 t w v W1 b1 n * W2 n) + b2

/-- The loss of one position from a model output `o`, the recorded score `sc` and the game result `res`:
    `1 · (σ(o/400) - σ(sc/400))² + 0 · (σ(o/400) - res)²`. -/
def lossOf (o sc res : EReal) : EReal :=
  oneW * ((sigm o - sigm sc) * (sigm o - sigm sc)) + zeroW * ((sigm o - res) * (sigm o - res))

/-- One first-layer output: a feature row against row `j` of the first weight matrix, plus the bias. -/
def layer1 (x : Fin 81920 → EReal) (W0 : Fin 4 → Fin 81920 → EReal) (b0 : Fin 4 → EReal) (j : Fin 4) : EReal :=
  (∑ k : Fin 81920, x k * W0 j k) + b0 j

/-! ## The loss of every position, from the eleven argument arrays -/

open Idealize.ShloMosaic.ValueIdx in
/-- The loss of position `r`: the network above on row `r` of the two feature arrays and of the three per-position
    columns, with the parameter arrays read entry by entry. -/
def lossArr (X Y : (⟨2, ![1024, 81920]⟩ : Shape).Idx → EReal) (T Sc R : (⟨2, ![1024, 1]⟩ : Shape).Idx → EReal)
    (W0 : (⟨2, ![4, 81920]⟩ : Shape).Idx → EReal) (B0 : (⟨1, ![4]⟩ : Shape).Idx → EReal)
    (W1 : (⟨2, ![8, 8]⟩ : Shape).Idx → EReal) (B1 : (⟨1, ![8]⟩ : Shape).Idx → EReal)
    (W2 : (⟨2, ![1, 8]⟩ : Shape).Idx → EReal) (B2 : (⟨1, ![1]⟩ : Shape).Idx → EReal) (r : Fin 1024) : EReal :=
  lossOf
    (outUnit (T (ix2 r (0 : Fin 1)))
      (layer1 (fun k => X (ix2 r k)) (fun j k => W0 (ix2 j k)) (fun j => B0 (ix1 j)))
      (layer1 (fun k => Y (ix2 r k)) (fun j k => W0 (ix2 j k)) (fun j => B0 (ix1 j)))
      (fun n k => W1 (ix2 n k)) (fun n => B1 (ix1 n)) (fun n => W2 (ix2 (0 : Fin 1) n)) (B2 (ix1 (0 : Fin 1))))
    (Sc (ix2 r (0 : Fin 1))) (R (ix2 r (0 : Fin 1)))

/-! ## The two summation laws -/

/-- A sum over `n · B` consecutive indices is the sum over `n` blocks of the sums over each block's `B` indices. -/
theorem sum_blocks {M : Type*} [AddCommMonoid M] (n B : ℕ) (f : Fin (n * B) → M) :
    ∑ k, f k = ∑ s : Fin n, ∑ q : Fin B, f (finProdFinEquiv (s, q)) := by
  rw [← Equiv.sum_comp finProdFinEquiv f, Fintype.sum_prod_type]

/-- The position of entry `q` of block `s`. -/
theorem blocks_val (n B : ℕ) (s : Fin n) (q : Fin B) : (finProdFinEquiv (s, q) : Fin (n * B)).val = q.val + B * s.val := rfl

/-- The 81920 features as ten consecutive blocks of 8192: feature `8192 s + q` is entry `q` of block `s`. -/
theorem sum_feature_blocks {M : Type*} [AddCommMonoid M] (f : Fin 81920 → M) :
    ∑ s : Fin 10, ∑ q : Fin 8192, f ⟨8192 * s.val + q.val, by have := s.isLt; have := q.isLt; omega⟩ = ∑ k : Fin 81920, f k := by
  rw [show (∑ k : Fin 81920, f k) = ∑ k : Fin (10 * 8192), f k from rfl, sum_blocks 10 8192 f]
  refine Finset.sum_congr rfl fun s _ => Finset.sum_congr rfl fun q _ => congrArg f (Fin.ext ?_)
  show 8192 * s.val + q.val = q.val + 8192 * s.val
  omega

/-- The logistic spelt with the printed word of one, `1 / (1 + e^(-x))`, is the logistic. -/
theorem logistic_words (x : EReal) : Ideal.div oneW (oneW + Ideal.exp (-x)) = Ideal.logistic x := by
  rw [oneW_eq]; rfl

end Cert.LossSpec

end
-- ==== Proof.Dots.lean ====
/-
  The three matrix products of the kernel body, read at one entry as plain sums, and the one layout lemma they need.

  Over the extended reals a matrix product into a zero accumulator is, entry by entry, the sum over the contracted
  index of the products of the operands' entries: nothing of the blocking or the operand precision is left in it. The
  first product contracts the feature axis of a feature block with the feature axis of a weight block (row against
  row); the other two are ordinary row-by-column products.
-/
import proofs.«136821_j16990890623528_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Dots

open Cert.KernelIdeal

/-- A column `[a, 1]` broadcast along its unit axis to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem featDot_apply_lhs (i : S256x4.Idx) (q : dot_S256x8192_S4x8192_S256x4_1_1_0_0_n_n.contr.Idx) : (dot_S256x8192_S4x8192_S256x4_1_1_0_0_n_n.lhsIdx i q 0).val = (i 0).val := by
  unfold DotDims.lhsIdx
  rw [dif_neg (show ¬(0 : Fin S256x8192.rank) ∈ dot_S256x8192_S4x8192_S256x4_1_1_0_0_n_n.lhsBatch by decide), dif_pos (show (0 : Fin S256x8192.rank) ∈ dot_S256x8192_S4x8192_S256x4_1_1_0_0_n_n.lhsNonContracting by decide)]
  rfl
theorem featDot_apply_rhs (i : S256x4.Idx) (q : dot_S256x8192_S4x8192_S256x4_1_1_0_0_n_n.contr.Idx) : (dot_S256x8192_S4x8192_S256x4_1_1_0_0_n_n.rhsIdx i q 0).val = (i 1).val := by
  unfold DotDims.rhsIdx
  rw [dif_neg (show ¬(0 : Fin S4x8192.rank) ∈ dot_S256x8192_S4x8192_S256x4_1_1_0_0_n_n.rhsBatch by decide), dif_pos (show (0 : Fin S4x8192.rank) ∈ dot_S256x8192_S4x8192_S256x4_1_1_0_0_n_n.rhsNonContracting by decide)]
  rfl
/-- A 256 × 8192 feature block against a 4 × 8192 weight block, contracted along the features: entry `(p, j)` is the sum over the block's features `q` of `l (p, q) · r (j, q)`. -/
theorem featDot_apply (l : FVec Ideal S256x8192 .f32) (r : FVec Ideal S4x8192 .f32) (p : Fin 256) (j : Fin 4) :
    matmul dot_S256x8192_S4x8192_S256x4_1_1_0_0_n_n none l r (constant (F := Ideal) S256x4 .f32 0x00000000#32) (ix2 p j)
      = ∑ q : Fin 8192, l (ix2 p q) * r (ix2 j q) := by
  simp only [matmul]
  rw [Ideal.matmul_constant_zero_apply, ← Equiv.sum_comp (contrEquiv1 dot_S256x8192_S4x8192_S256x4_1_1_0_0_n_n 8192 rfl rfl).symm]
  refine Finset.sum_congr rfl fun q _ => ?_
  have hq := contrEquiv1_symm_val dot_S256x8192_S4x8192_S256x4_1_1_0_0_n_n 8192 rfl rfl q
  have el : dot_S256x8192_S4x8192_S256x4_1_1_0_0_n_n.lhsIdx (ix2 p j) ((contrEquiv1 dot_S256x8192_S4x8192_S256x4_1_1_0_0_n_n 8192 rfl rfl).symm q) = ix2 p q := funext fun a => Fin.ext (by
    match a with
    | ⟨0, _⟩ => exact featDot_apply_lhs _ _
    | ⟨1, _⟩ => exact (dot_S256x8192_S4x8192_S256x4_1_1_0_0_n_n.lhsIdx_val_of_single rfl _ _).trans hq)
  have er : dot_S256x8192_S4x8192_S256x4_1_1_0_0_n_n.rhsIdx (ix2 p j) ((contrEquiv1 dot_S256x8192_S4x8192_S256x4_1_1_0_0_n_n 8192 rfl rfl).symm q) = ix2 j q := funext fun a => Fin.ext (by
    match a with
    | ⟨0, _⟩ => exact featDot_apply_rhs _ _
    | ⟨1, _⟩ => exact (dot_S256x8192_S4x8192_S256x4_1_1_0_0_n_n.rhsIdx_val_of_single rfl _ _).trans hq)
  rw [el, er]

theorem hiddenDot_apply_lhs (i : S256x8.Idx) (q : dot_S256x4_S4x8_S256x8_1_0_0_1_n_n.contr.Idx) : (dot_S256x4_S4x8_S256x8_1_0_0_1_n_n.lhsIdx i q 0).val = (i 0).val := by
  unfold DotDims.lhsIdx
  rw [dif_neg (show ¬(0 : Fin S256x4.rank) ∈ dot_S256x4_S4x8_S256x8_1_0_0_1_n_n.lhsBatch by decide), dif_pos (show (0 : Fin S256x4.rank) ∈ dot_S256x4_S4x8_S256x8_1_0_0_1_n_n.lhsNonContracting by decide)]
  rfl
theorem hiddenDot_apply_rhs (i : S256x8.Idx) (q : dot_S256x4_S4x8_S256x8_1_0_0_1_n_n.contr.Idx) : (dot_S256x4_S4x8_S256x8_1_0_0_1_n_n.rhsIdx i q 1).val = (i 1).val := by
  unfold DotDims.rhsIdx
  rw [dif_neg (show ¬(1 : Fin S4x8.rank) ∈ dot_S256x4_S4x8_S256x8_1_0_0_1_n_n.rhsBatch by decide), dif_pos (show (1 : Fin S4x8.rank) ∈ dot_S256x4_S4x8_S256x8_1_0_0_1_n_n.rhsNonContracting by decide)]
  rfl
/-- A 256 × 4 block of hidden values against a 4 × 8 weight block: entry `(p, n)` is the sum over `q < 4` of `l (p, q) · r (q, n)`. -/
theorem hiddenDot_apply (l : FVec Ideal S256x4 .bf16) (r : FVec Ideal S4x8 .bf16) (p : Fin 256) (j : Fin 8) :
    matmul dot_S256x4_S4x8_S256x8_1_0_0_1_n_n none l r (constant (F := Ideal) S256x8 .f32 0x00000000#32) (ix2 p j)
      = ∑ q : Fin 4, l (ix2 p q) * r (ix2 q j) := by
  simp only [matmul]
  rw [Ideal.matmul_constant_zero_apply, ← Equiv.sum_comp (contrEquiv1 dot_S256x4_S4x8_S256x8_1_0_0_1_n_n 4 rfl rfl).symm]
  refine Finset.sum_congr rfl fun q _ => ?_
  have hq := contrEquiv1_symm_val dot_S256x4_S4x8_S256x8_1_0_0_1_n_n 4 rfl rfl q
  have el : dot_S256x4_S4x8_S256x8_1_0_0_1_n_n.lhsIdx (ix2 p j) ((contrEquiv1 dot_S256x4_S4x8_S256x8_1_0_0_1_n_n 4 rfl rfl).symm q) = ix2 p q := funext fun a => Fin.ext (by
    match a with
    | ⟨0, _⟩ => exact hiddenDot_apply_lhs _ _
    | ⟨1, _⟩ => exact (dot_S256x4_S4x8_S256x8_1_0_0_1_n_n.lhsIdx_val_of_single rfl _ _).trans hq)
  have er : dot_S256x4_S4x8_S256x8_1_0_0_1_n_n.rhsIdx (ix2 p j) ((contrEquiv1 dot_S256x4_S4x8_S256x8_1_0_0_1_n_n 4 rfl rfl).symm q) = ix2 q j := funext fun a => Fin.ext (by
    match a with
    | ⟨0, _⟩ => exact (dot_S256x4_S4x8_S256x8_1_0_0_1_n_n.rhsIdx_val_of_single rfl _ _).trans hq
    | ⟨1, _⟩ => exact hiddenDot_apply_rhs _ _)
  rw [el, er]

theorem outDot_apply_lhs (i : S256x1.Idx) (q : dot_S256x8_S8x1_S256x1_1_0_0_1_n_n.contr.Idx) : (dot_S256x8_S8x1_S256x1_1_0_0_1_n_n.lhsIdx i q 0).val = (i 0).val := by
  unfold DotDims.lhsIdx
  rw [dif_neg (show ¬(0 : Fin S256x8.rank) ∈ dot_S256x8_S8x1_S256x1_1_0_0_1_n_n.lhsBatch by decide), dif_pos (show (0 : Fin S256x8.rank) ∈ dot_S256x8_S8x1_S256x1_1_0_0_1_n_n.lhsNonContracting by decide)]
  rfl
theorem outDot_apply_rhs (i : S256x1.Idx) (q : dot_S256x8_S8x1_S256x1_1_0_0_1_n_n.contr.Idx) : (dot_S256x8_S8x1_S256x1_1_0_0_1_n_n.rhsIdx i q 1).val = (i 1).val := by
  unfold DotDims.rhsIdx
  rw [dif_neg (show ¬(1 : Fin S8x1.rank) ∈ dot_S256x8_S8x1_S256x1_1_0_0_1_n_n.rhsBatch by decide), dif_pos (show (1 : Fin S8x1.rank) ∈ dot_S256x8_S8x1_S256x1_1_0_0_1_n_n.rhsNonContracting by decide)]
  rfl
/-- A 256 × 8 block of second-layer values against the 8 × 1 output weights: entry `(p, 0)` is the sum over `q < 8` of `l (p, q) · r (q, 0)`. -/
theorem outDot_apply (l : FVec Ideal S256x8 .bf16) (r : FVec Ideal S8x1 .bf16) (p : Fin 256) (j : Fin 1) :
    matmul dot_S256x8_S8x1_S256x1_1_0_0_1_n_n none l r (constant (F := Ideal) S256x1 .f32 0x00000000#32) (ix2 p j)
      = ∑ q : Fin 8, l (ix2 p q) * r (ix2 q j) := by
  simp only [matmul]
  rw [Ideal.matmul_constant_zero_apply, ← Equiv.sum_comp (contrEquiv1 dot_S256x8_S8x1_S256x1_1_0_0_1_n_n 8 rfl rfl).symm]
  refine Finset.sum_congr rfl fun q _ => ?_
  have hq := contrEquiv1_symm_val dot_S256x8_S8x1_S256x1_1_0_0_1_n_n 8 rfl rfl q
  have el : dot_S256x8_S8x1_S256x1_1_0_0_1_n_n.lhsIdx (ix2 p j) ((contrEquiv1 dot_S256x8_S8x1_S256x1_1_0_0_1_n_n 8 rfl rfl).symm q) = ix2 p q := funext fun a => Fin.ext (by
    match a with
    | ⟨0, _⟩ => exact outDot_apply_lhs _ _
    | ⟨1, _⟩ => exact (dot_S256x8_S8x1_S256x1_1_0_0_1_n_n.lhsIdx_val_of_single rfl _ _).trans hq)
  have er : dot_S256x8_S8x1_S256x1_1_0_0_1_n_n.rhsIdx (ix2 p j) ((contrEquiv1 dot_S256x8_S8x1_S256x1_1_0_0_1_n_n 8 rfl rfl).symm q) = ix2 q j := funext fun a => Fin.ext (by
    match a with
    | ⟨0, _⟩ => exact (dot_S256x8_S8x1_S256x1_1_0_0_1_n_n.rhsIdx_val_of_single rfl _ _).trans hq
    | ⟨1, _⟩ => exact outDot_apply_rhs _ _)
  rw [el, er]
end Cert.KernelIdeal.Dots

end
-- ==== Proof.Payload.lean ====
/-
  The kernel body's arithmetic read at one entry, over the extended reals.

  Each stored value of the body is a fixed tree of vector operations of the values the body loaded. Read at one
  entry, the pointwise operations act on that entry, a row or column broadcast reads its one row or column, a
  transpose swaps the coordinates, a slice shifts one, a change of float format does nothing, and a matrix product
  into a zero accumulator is a finite sum. So: an accumulator step adds the sum over the step's 8192 features; the
  bias adds one number per hidden unit; a hidden value is the clipped blend of the two perspectives; the second layer
  splits its eight inputs four and four; and the stored loss is the specification's `lossOf` of the output unit.
-/
import proofs.«136821_j16990890623528_2_alg».proof.Proof.Gen.KernelIdeal.Skeleton
import proofs.«136821_j16990890623528_2_alg».proof.Proof.Spec
import proofs.«136821_j16990890623528_2_alg».proof.Proof.Dots
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.KernelIdeal.Dots Cert.LossSpec

/-- The reset block is zero at every entry. -/
theorem zeroW_apply (i : S256x4.Idx) : (k0_pay1 (F := Ideal)) i = zeroW := by
  unfold k0_pay1
  simp only [shapeCast_self]
  rfl

theorem zeroB_apply (i : S256x4.Idx) : (k0_pay2 (F := Ideal)) i = zeroW := by
  unfold k0_pay2
  simp only [shapeCast_self]
  rfl

/-- One step of the white accumulator at entry `(p, j)`: what it held plus the sum over the step's features. -/
theorem stepW_apply (acc : Vec Ideal S256x4 .f32) (l : Vec Ideal S256x8192 .f32) (r : Vec Ideal S4x8192 .f32)
    (p : Fin 256) (j : Fin 4) :
    k0_pay3 acc l r (ix2 p j) = acc (ix2 p j) + ∑ q : Fin 8192, l (ix2 p q) * r (ix2 j q) := by
  unfold k0_pay3
  simp only [shapeCast_self]
  rw [addf_apply, featDot_apply]

theorem stepB_apply (acc : Vec Ideal S256x4 .f32) (l : Vec Ideal S256x8192 .f32) (r : Vec Ideal S4x8192 .f32)
    (p : Fin 256) (j : Fin 4) :
    k0_pay4 acc l r (ix2 p j) = acc (ix2 p j) + ∑ q : Fin 8192, l (ix2 p q) * r (ix2 j q) := by
  unfold k0_pay4
  simp only [shapeCast_self]
  rw [addf_apply, featDot_apply]

/-- An accumulator plus the first-layer bias, at entry `(p, j)`. -/
theorem biasW_apply (acc : Vec Ideal S256x4 .f32) (b0 : Vec Ideal S4 .f32) (p : Fin 256) (j : Fin 4) :
    k0_pay6 acc b0 (ix2 p j) = acc (ix2 p j) + b0 (ix1 j) := by
  unfold k0_pay6
  rw [addf_apply, broadcastTo_1b_ab_apply, shapeCast_a_1a_apply]

theorem biasB_apply (acc : Vec Ideal S256x4 .f32) (b0 : Vec Ideal S4 .f32) (p : Fin 256) (j : Fin 4) :
    k0_pay7 acc b0 (ix2 p j) = acc (ix2 p j) + b0 (ix1 j) := by
  unfold k0_pay7
  rw [addf_apply, broadcastTo_1b_ab_apply, shapeCast_a_1a_apply]

/-- The turn column broadcast along the four hidden units. -/
theorem turn_apply (t : FVec Ideal S256x1 .f32) (p : Fin 256) (q : Fin 4) :
    broadcastTo S256x4 t broadcasts_S256x1_S256x4 (ix2 p q) = t (ix2 p (0 : Fin 1)) :=
  broadcastTo_a1_ab_apply t _ p q

/-- One perspective's hidden value at `(p, q)` in the vector spelling: the blend of two first-layer outputs, clipped. -/
theorem hidden_apply (u v : FVec Ideal S256x4 .f32) (t : FVec Ideal S256x1 .f32) (p : Fin 256) (q : Fin 4) :
    minimumf (broadcast S256x4 (Scalar.ofBits (F := Ideal) .f32 0x3F800000#32))
        (maximumf (broadcast S256x4 (Scalar.ofBits (F := Ideal) .f32 0x00000000#32))
          (addf (mulf (broadcastTo S256x4 t broadcasts_S256x1_S256x4) u)
            (mulf (broadcastTo S256x4 (subf (broadcast S256x1 (Scalar.ofBits (F := Ideal) .f32 0x3F800000#32)) t)
              broadcasts_S256x1_S256x4) v))) (ix2 p q)
      = clip01 (blend (t (ix2 p (0 : Fin 1))) (u (ix2 p q)) (v (ix2 p q))) := by
  rw [minimumf_apply, maximumf_apply, addf_apply, mulf_apply, mulf_apply, turn_apply, turn_apply, subf_apply]
  rfl

/-- The second perspective's hidden value at `(p, q)`: the blend of the black and white first-layer outputs, clipped. -/
theorem hiddenB_apply (a : Vec Ideal S256x4 .f32) (b0 : Vec Ideal S4 .f32) (b : Vec Ideal S256x4 .f32) (b0' : Vec Ideal S4 .f32)
    (t : Vec Ideal S256x1 .f32) (p : Fin 256) (q : Fin 4) :
    k0_pay9 a b0 b b0' t (ix2 p q)
      = clip01 (blend (t (ix2 p (0 : Fin 1))) (b (ix2 p q) + b0' (ix1 q)) (a (ix2 p q) + b0 (ix1 q))) := by
  unfold k0_pay9
  rw [truncf_apply]
  refine (hidden_apply _ _ _ p q).trans ?_
  rw [biasW_apply, biasB_apply]

/-- The lower half of the second layer's weights, transposed: entry `(q, n)` is `W1 (n, 4 + q)`. -/
theorem upperW_apply (W1 : Vec Ideal S8x8 .f32) (q : Fin 4) (n : Fin 8) :
    k0_pay10 W1 (ix2 q n) = W1 (ix2 n (Fin.natAdd 4 q)) := by
  unfold k0_pay10
  rw [transpose_ix2_apply, truncf_apply, slice2_axis1_apply 4 W1 _ n q (Fin.natAdd 4 q) rfl]

/-- The first perspective's half of the second layer's sum at `(p, n)`. -/
theorem halfA_apply (a : Vec Ideal S256x4 .f32) (b0 : Vec Ideal S4 .f32) (b : Vec Ideal S256x4 .f32) (b0' : Vec Ideal S4 .f32)
    (t : Vec Ideal S256x1 .f32) (W1 : Vec Ideal S8x8 .f32) (p : Fin 256) (n : Fin 8) :
    k0_pay8 a b0 b b0' t W1 (ix2 p n)
      = ∑ q : Fin 4, clip01 (blend (t (ix2 p (0 : Fin 1))) (a (ix2 p q) + b0 (ix1 q)) (b (ix2 p q) + b0' (ix1 q)))
          * W1 (ix2 n (Fin.castAdd 4 q)) := by
  unfold k0_pay8
  rw [hiddenDot_apply]
  refine Finset.sum_congr rfl fun q _ => ?_
  rw [transpose_ix2_apply]
  simp only [truncf_apply]
  rw [slice2_axis1_apply 0 W1 _ n q (Fin.castAdd 4 q) (Nat.zero_add _).symm]
  refine congrArg (· * W1 (ix2 n (Fin.castAdd 4 q))) ?_
  refine (hidden_apply _ _ _ p q).trans ?_
  rw [biasW_apply, biasB_apply]

theorem logistic_apply {s : Shape} {φ : FTy} (x : FVec Ideal s φ) (i : s.Idx) : logistic x i = Ideal.logistic (x i) := rfl

/-- The stored loss at position `p`, from the first half of the second layer's sum `h8`, the second perspective's
    hidden values `hb` and their weights `wu`. -/
theorem loss_apply (h8 : FVec Ideal S256x8 .f32) (hb : FVec Ideal S256x4 .bf16) (wu : FVec Ideal S4x8 .bf16)
    (b1 : Vec Ideal S8 .f32) (W2 : Vec Ideal S1x8 .f32) (b2 : Vec Ideal S1 .f32) (sc res : Vec Ideal S256x1 .f32) (p : Fin 256) :
    k0_pay5 h8 hb wu b1 W2 b2 sc res (ix2 p (0 : Fin 1))
      = lossOf ((∑ n : Fin 8, clip01 ((h8 (ix2 p n) + ∑ q : Fin 4, hb (ix2 p q) * wu (ix2 q n)) + b1 (ix1 n))
            * W2 (ix2 (0 : Fin 1) n)) + b2 (ix1 (0 : Fin 1)))
          (sc (ix2 p (0 : Fin 1))) (res (ix2 p (0 : Fin 1))) := by
  unfold k0_pay5
  simp only [addf_apply, mulf_apply, subf_apply, divf_apply, broadcast_apply, logistic_apply]
  rw [outDot_apply, broadcastTo_1b_ab_apply, shapeCast_a_1a_apply]
  have hW : ∀ n : Fin 8, (transpose S8x1 [1, 0] (truncf (F := Ideal) .bf16 W2 bitsLt_bf16_f32) transposes_S1x8_p1_0_S8x1
      (ix2 n (0 : Fin 1)) : EReal) = W2 (ix2 (0 : Fin 1) n) := fun n => by rw [transpose_ix2_apply, truncf_apply]
  simp only [truncf_apply, minimumf_apply, maximumf_apply, addf_apply, broadcast_apply, hiddenDot_apply,
    broadcastTo_1b_ab_apply, shapeCast_a_1a_apply, hW]
  rfl

/-- The whole epilogue at position `p`: from the two finished accumulators `A0`, `A1` and the staged parameters, the
    stored loss is the specification's loss of the output unit on the two first-layer outputs `S + b0`. -/
theorem tail_apply (A0 A1 : FVec Ideal S256x4 .f32) (B0 : Vec Ideal S4 .f32) (T : Vec Ideal S256x1 .f32)
    (W1 : Vec Ideal S8x8 .f32) (B1 : Vec Ideal S8 .f32) (W2 : Vec Ideal S1x8 .f32) (B2 : Vec Ideal S1 .f32)
    (Sc R : Vec Ideal S256x1 .f32) (p : Fin 256) :
    k0_pay5 (k0_pay8 A0 B0 A1 B0 T W1) (k0_pay9 A0 B0 A1 B0 T) (k0_pay10 W1) B1 W2 B2 Sc R (ix2 p (0 : Fin 1))
      = lossOf (outUnit (T (ix2 p (0 : Fin 1))) (fun j => A0 (ix2 p j) + B0 (ix1 j)) (fun j => A1 (ix2 p j) + B0 (ix1 j))
          (fun n k => W1 (ix2 n k)) (fun n => B1 (ix1 n)) (fun n => W2 (ix2 (0 : Fin 1) n)) (B2 (ix1 (0 : Fin 1))))
        (Sc (ix2 p (0 : Fin 1))) (R (ix2 p (0 : Fin 1))) := by
  rw [loss_apply]
  unfold outUnit layer2
  refine congrArg (fun o => lossOf o (Sc (ix2 p (0 : Fin 1))) (R (ix2 p (0 : Fin 1)))) ?_
  refine congrArg (· + B2 (ix1 (0 : Fin 1))) (Finset.sum_congr rfl fun n _ => ?_)
  rw [halfA_apply]
  refine congrArg (fun z => clip01 (z + B1 (ix1 n)) * W2 (ix2 (0 : Fin 1) n)) ?_
  refine congrArg (_ + ·) (Finset.sum_congr rfl fun q _ => ?_)
  rw [hiddenB_apply, upperW_apply]

end Cert.KernelIdeal.Payload

end
-- ==== Proof.KernelValue.lean ====
/-
  The kernel's result array, as one function of its argument arrays.

  A batch block's losses are written back once, after its last feature block. At that step each accumulator holds the
  zero block plus the ten products of the batch block's steps; entry `(p, j)` of a product is a sum over that step's 8192
  features, so the ten together are the sum over all 81920 features (`sum_feature_blocks`), and with the bias this is
  the first-layer output of position `256 b + p`. The epilogue turns the two first-layer outputs into the specification's
  loss of that position. The four written-back blocks are disjoint runs of 256 rows and cover the 1024 positions.
-/
import proofs.«136821_j16990890623528_2_alg».proof.Proof.Fold
import proofs.«136821_j16990890623528_2_alg».proof.Proof.Blocks
import proofs.«136821_j16990890623528_2_alg».proof.Proof.Payload
import proofs.«136821_j16990890623528_2_alg».proof.Proof.Spec
import proofs.«136821_j16990890623528_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Body Cert.KernelIdeal.Blocks Cert.KernelIdeal.Dots
  Cert.KernelIdeal.Payload Cert.LossSpec

variable (m : (ℓ : Loc nD τ sig) → Buf (Elt Ideal) ℓ) (ρ : Dev nD → PrngReg)

/-- What the result array ends holding: the specification's loss of each position, from the launch arrays. -/
def lossOfArgs (c : Dev nD) : Buf (Elt Ideal) ((c : Thread nD τ).loc main_v0) :=
  fun (i : S1024x1.Idx) => lossArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨(i 0).val, idx2_lt0 i⟩

/-- At a batch block's last step the white accumulator plus the bias is the white first-layer output of each of its positions. -/
theorem white_full (c : Dev nD) (t : Fin cfg0.N) (b : Fin 4) (ht : t.val = 10 * b.val + 9) (p : Fin 256) (j : Fin 4) :
    (outsAt0 m c t.val t.isLt).2.1 (ix2 p j) + (iblk m c 6 t : Vec Ideal S4 .f32) (ix1 j)
      = layer1 (fun k => (m ((c : Thread nD τ).loc main_arg0)) (ix2 ⟨256 * b.val + p.val, by have := b.isLt; have := p.isLt; omega⟩ k))
          (fun j k => (m ((c : Thread nD τ).loc main_arg5)) (ix2 j k)) (fun j => (m ((c : Thread nD τ).loc main_arg6)) (ix1 j)) j := by
  have hN : cfg0.N = 40 := N_0
  have hq : t.val / 10 = b.val := by omega
  have hr : t.val % 10 + 1 = 10 := by omega
  rw [Acc.accW_eq m c t, hr, hq, bias0_whole m c t, zeroW_apply, Finset.sum_range]
  unfold layer1
  refine congrArg (· + (m ((c : Thread nD τ).loc main_arg6)) (ix1 j)) ?_
  rw [← sum_feature_blocks, show zeroW = 0 from Ideal.ofBits_zero_f32, zero_add]
  refine Finset.sum_congr rfl fun s _ => ?_
  have hs : 10 * b.val + s.val < cfg0.N := by have := b.isLt; have := s.isLt; rw [hN]; omega
  unfold Acc.addW
  rw [dif_pos hs, featDot_apply]
  refine Finset.sum_congr rfl fun q _ => ?_
  rw [white_apply m c ⟨_, hs⟩ b s rfl p q, weight_apply m c ⟨_, hs⟩ b s rfl j q]

/-- The same for the black accumulator. -/
theorem black_full (c : Dev nD) (t : Fin cfg0.N) (b : Fin 4) (ht : t.val = 10 * b.val + 9) (p : Fin 256) (j : Fin 4) :
    (outsAt0 m c t.val t.isLt).2.2 (ix2 p j) + (iblk m c 6 t : Vec Ideal S4 .f32) (ix1 j)
      = layer1 (fun k => (m ((c : Thread nD τ).loc main_arg1)) (ix2 ⟨256 * b.val + p.val, by have := b.isLt; have := p.isLt; omega⟩ k))
          (fun j k => (m ((c : Thread nD τ).loc main_arg5)) (ix2 j k)) (fun j => (m ((c : Thread nD τ).loc main_arg6)) (ix1 j)) j := by
  have hN : cfg0.N = 40 := N_0
  have hq : t.val / 10 = b.val := by omega
  have hr : t.val % 10 + 1 = 10 := by omega
  rw [Acc.accB_eq m c t, hr, hq, bias0_whole m c t, zeroB_apply, Finset.sum_range]
  unfold layer1
  refine congrArg (· + (m ((c : Thread nD τ).loc main_arg6)) (ix1 j)) ?_
  rw [← sum_feature_blocks, show zeroW = 0 from Ideal.ofBits_zero_f32, zero_add]
  refine Finset.sum_congr rfl fun s _ => ?_
  have hs : 10 * b.val + s.val < cfg0.N := by have := b.isLt; have := s.isLt; rw [hN]; omega
  unfold Acc.addB
  rw [dif_pos hs, featDot_apply]
  refine Finset.sum_congr rfl fun q _ => ?_
  rw [black_apply m c ⟨_, hs⟩ b s rfl p q, weight_apply m c ⟨_, hs⟩ b s rfl j q]

/-- The output block after a batch block's last step: the epilogue on the two accumulators as that step leaves them. -/
theorem out_last (c : Dev nD) (t : Fin cfg0.N) (h0 : ¬t.val % 10 = 0) (h1 : t.val % 10 = 9) :
    (outsAt0 m c t.val t.isLt).1
      = k0_pay5 (k0_pay8 (outsAt0 m c t.val t.isLt).2.1 (iblk m c 6 t) (outsAt0 m c t.val t.isLt).2.2 (iblk m c 6 t) (iblk m c 3 t) (iblk m c 7 t))
          (k0_pay9 (outsAt0 m c t.val t.isLt).2.1 (iblk m c 6 t) (outsAt0 m c t.val t.isLt).2.2 (iblk m c 6 t) (iblk m c 3 t))
          (k0_pay10 (iblk m c 7 t)) (iblk m c 8 t) (iblk m c 9 t) (iblk m c 10 t) (iblk m c 4 t) (iblk m c 5 t) := by
  rw [outsAt0_C m c t h0 h1]
  dsimp only
  rw [loss_last, accw_last, accb_last]

/-- What a write-back point writes back is its block of the specification's losses. -/
theorem flushed_eq (c : Dev nD) (t : Fin cfg0.N) (hf : (cfg0.win 11).flush t = true) :
    (dats m 0 c).flushed 11 t = ((cfg0.win 11).blk t).view.read (Elt Ideal) (lossOfArgs m c) := by
  have hN : cfg0.N = 40 := N_0
  have h1 : t.val % 10 = 9 := (flush0_11 t).mp hf
  have h0 : ¬t.val % 10 = 0 := by omega
  have hb : t.val / 10 < 4 := by have := t.isLt; omega
  have ht : t.val = 10 * (⟨t.val / 10, hb⟩ : Fin 4).val + 9 := by show t.val = 10 * (t.val / 10) + 9; omega
  have ht' : t.val = 10 * (⟨t.val / 10, hb⟩ : Fin 4).val + (9 : Fin 10).val := ht
  have e := idx_facts t
  rw [Value.flushed11, out_last m c t h0 h1]
  funext y
  obtain ⟨p, u, rfl⟩ : ∃ (p : Fin 256) (u : Fin 1), y = ix2 p u := ⟨y 0, y 1, eq_ix2 y⟩
  obtain rfl : u = 0 := Subsingleton.elim _ _
  rw [View.read_apply]
  show k0_pay5 (F := Ideal) _ _ _ _ _ _ _ _ (ix2 p (0 : Fin 1)) = lossOfArgs m c (((cfg0.win 11).blk t).view.emb (ix2 p (0 : Fin 1)))
  rw [tail_apply]
  unfold lossOfArgs lossArr
  have hrow : (⟨((((cfg0.win 11).blk t).view.emb (ix2 p (0 : Fin 1))) 0).val, idx2_lt0 _⟩ : Fin 1024)
      = ⟨256 * (⟨t.val / 10, hb⟩ : Fin 4).val + p.val, by have := p.isLt; show 256 * (t.val / 10) + p.val < 1024; omega⟩ := by
    apply Fin.ext
    show win0_11.index t 0 * 256 + 1 * p.val = 256 * (t.val / 10) + p.val
    rw [e.w11_0]; omega
  rw [hrow]
  have hw : (fun j => (outsAt0 m c t.val t.isLt).2.1 (ix2 p j) + (iblk m c 6 t : Vec Ideal S4 .f32) (ix1 j)) = _ :=
    funext fun j => white_full m c t ⟨t.val / 10, hb⟩ ht p j
  have hk : (fun j => (outsAt0 m c t.val t.isLt).2.2 (ix2 p j) + (iblk m c 6 t : Vec Ideal S4 .f32) (ix1 j)) = _ :=
    funext fun j => black_full m c t ⟨t.val / 10, hb⟩ ht p j
  rw [hw, hk, turn_col m c t ⟨t.val / 10, hb⟩ 9 ht' p, score_col m c t ⟨t.val / 10, hb⟩ 9 ht' p,
    result_col m c t ⟨t.val / 10, hb⟩ 9 ht' p, weights1_whole m c t, bias1_whole m c t, weights2_whole m c t,
    bias2_whole m c t]

/-- An index of the result array is in step `t`'s block iff each coordinate is in the block's range on its axis. -/
theorem mem_blk (t : Fin cfg0.N) (i : S1024x1.Idx) :
    i ∈ ((cfg0.win 11).blk t).view.set ↔ ∀ a : Fin 2, win0_11.index t a * S256x1.size a ≤ (i a).val
      ∧ (i a).val < win0_11.index t a * S256x1.size a + S256x1.size a := by
  show i ∈ ((View.whole main_v0).slice (win0_11.rect t)).set ↔ _
  rw [View.set_slice_whole, Rect.mem_set_unit]
  exact Iff.rfl

/-- Position `r` is written back by the last step of batch block `r / 256`. -/
theorem cover (i : S1024x1.Idx) :
    ∃ t : Fin cfg0.N, (cfg0.win 11).flush t = true ∧ i ∈ ((cfg0.win 11).blk t).view.set := by
  have hN : cfg0.N = 40 := N_0
  have hi0 : (i 0).val < 1024 := (i 0).isLt
  have hi1 : (i 1).val < 1 := (i 1).isLt
  have hlt : 10 * ((i 0).val / 256) + 9 < cfg0.N := by rw [hN]; omega
  have e := idx_facts (⟨10 * ((i 0).val / 256) + 9, hlt⟩ : Fin cfg0.N)
  refine ⟨⟨10 * ((i 0).val / 256) + 9, hlt⟩, (flush0_11 _).mpr (by show (10 * ((i 0).val / 256) + 9) % 10 = 9; omega), ?_⟩
  rw [mem_blk]
  intro a
  match a with
  | ⟨0, _⟩ =>
    show win0_11.index ⟨10 * ((i 0).val / 256) + 9, hlt⟩ 0 * 256 ≤ (i 0).val
      ∧ (i 0).val < win0_11.index ⟨10 * ((i 0).val / 256) + 9, hlt⟩ 0 * 256 + 256
    rw [e.w11_0]
    show (10 * ((i 0).val / 256) + 9) / 10 * 256 ≤ (i 0).val ∧ (i 0).val < (10 * ((i 0).val / 256) + 9) / 10 * 256 + 256
    omega
  | ⟨1, _⟩ =>
    show win0_11.index ⟨10 * ((i 0).val / 256) + 9, hlt⟩ 1 * 1 ≤ (i 1).val
      ∧ (i 1).val < win0_11.index ⟨10 * ((i 0).val / 256) + 9, hlt⟩ 1 * 1 + 1
    rw [e.w11_1]
    omega

/-- So the result array ends holding the specification's losses. -/
theorem final (c : Dev nD) : (dats m 0 c).arrAt 11 cfg0.N = lossOfArgs m c :=
  (dats m 0 c).arrAt_eq_of_cover 11 (lossOfArgs m c) (fun t hf => flushed_eq m c t hf) cover

/-- The run, read: every weakly fair execution terminates with the result array at the specification's losses and the
    eleven arguments unchanged. -/
theorem run : θ_run defs (onTc (τ := τ) (main (F := Ideal))) ⟨m, fun _ => 0, ρ⟩ fun r => ∀ c : Dev nD,
      r.2.mem ((c : Thread nD τ).loc main_v0) = lossOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Result

end
-- ==== Proof.RefValue.lean ====
/-
  The reference program computes the specification.

  Its run is a straight line of host operations, each read at an index from its operands at an index. Chained from
  the result backwards they give, at position `r`: the two first-layer outputs as sums over all 81920 features plus
  the bias; the two concatenations, which put one perspective's four values before the other's; the blend by the side
  to move and the clip, entry by entry; the second layer as one sum over eight inputs, split here into its first four
  and last four; the output unit; and the two logistics, which the host spells `1 / (1 + e^(-x))`.
-/
import proofs.«136821_j16990890623528_2_alg».proof.Proof.Gen.ReferenceIdeal.Read
import proofs.«136821_j16990890623528_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.LossSpec

variable (x0 x1 : (⟨S1024x81920, .f32⟩ : BufTy).Contents (Elt Ideal)) (x2 x3 x4 : (⟨S1024x1, .f32⟩ : BufTy).Contents (Elt Ideal)) (x5 : (⟨S4x81920, .f32⟩ : BufTy).Contents (Elt Ideal))
  (x6 : (⟨S4, .f32⟩ : BufTy).Contents (Elt Ideal)) (x7 : (⟨S8x8, .f32⟩ : BufTy).Contents (Elt Ideal)) (x8 : (⟨S8, .f32⟩ : BufTy).Contents (Elt Ideal)) (x9 : (⟨S1x8, .f32⟩ : BufTy).Contents (Elt Ideal)) (x10 : (⟨S1, .f32⟩ : BufTy).Contents (Elt Ideal))

/-- The white first-layer output at `(r, j)`: the sum over all features plus the bias. -/
theorem first_white (r : Fin 1024) (j : Fin 4) :
    val_main_v4 (F := Ideal) x0 x5 x6 (ix2 r j)
      = layer1 (fun k => x0 (ix2 r k)) (fun j k => x5 (ix2 j k)) (fun j => x6 (ix1 j)) j := by
  rw [val_main_v4_apply, val_main_v1_apply, val_main_v3_apply, val_main_v2_apply]
  have e3 : idx_main_v2 (idx_main_v3 (ix2 r j)) = ix1 j := funext fun a => by match a with | ⟨0, _⟩ => rfl
  rw [e3]
  unfold layer1
  refine congrArg (· + x6 (ix1 j)) (Finset.sum_congr rfl fun k _ => ?_)
  rw [val_main_v0_apply]
  have e1 : lidx_main_v1 (ix2 r j) k = ix2 r k := funext fun a => by match a with | ⟨0, _⟩ => rfl | ⟨1, _⟩ => rfl
  have e2 : idx_main_v0 (ridx_main_v1 (ix2 r j) k) = ix2 j k := funext fun a => by match a with | ⟨0, _⟩ => rfl | ⟨1, _⟩ => rfl
  rw [e1, e2]

/-- The black first-layer output at `(r, j)`. -/
theorem first_black (r : Fin 1024) (j : Fin 4) :
    val_main_v9 (F := Ideal) x1 x5 x6 (ix2 r j)
      = layer1 (fun k => x1 (ix2 r k)) (fun j k => x5 (ix2 j k)) (fun j => x6 (ix1 j)) j := by
  rw [val_main_v9_apply, val_main_v6_apply, val_main_v8_apply, val_main_v7_apply]
  have e3 : idx_main_v7 (idx_main_v8 (ix2 r j)) = ix1 j := funext fun a => by match a with | ⟨0, _⟩ => rfl
  rw [e3]
  unfold layer1
  refine congrArg (· + x6 (ix1 j)) (Finset.sum_congr rfl fun k _ => ?_)
  rw [val_main_v5_apply]
  have e1 : lidx_main_v6 (ix2 r j) k = ix2 r k := funext fun a => by match a with | ⟨0, _⟩ => rfl | ⟨1, _⟩ => rfl
  have e2 : idx_main_v5 (ridx_main_v6 (ix2 r j) k) = ix2 j k := funext fun a => by match a with | ⟨0, _⟩ => rfl | ⟨1, _⟩ => rfl
  rw [e1, e2]

/-- The first concatenation puts the white outputs in columns 0–3 … -/
theorem catWB_lo (r : Fin 1024) (j : Fin 4) :
    val_main_v10 (F := Ideal) x0 x1 x5 x6 (ix2 r (Fin.castAdd 4 j)) = val_main_v4 (F := Ideal) x0 x5 x6 (ix2 r j) := by
  unfold val_main_v10
  exact concatenate_pair_apply_left (s₁ := S1024x4) (s₂ := S1024x4) 1 _ _ _ (ix2 r (Fin.castAdd 4 j)) rfl (ix2 r j) (fun b => match b with | ⟨0, _⟩ => rfl | ⟨1, _⟩ => rfl)

/-- … and the black ones in columns 4–7; -/
theorem catWB_hi (r : Fin 1024) (j : Fin 4) :
    val_main_v10 (F := Ideal) x0 x1 x5 x6 (ix2 r (Fin.natAdd 4 j)) = val_main_v9 (F := Ideal) x1 x5 x6 (ix2 r j) := by
  unfold val_main_v10
  exact concatenate_pair_apply_right (s₁ := S1024x4) (s₂ := S1024x4) 1 _ _ _ (ix2 r (Fin.natAdd 4 j)) rfl rfl (ix2 r j)
    (fun b hb => match b, hb with | ⟨0, _⟩, _ => rfl | ⟨1, _⟩, hb => absurd rfl hb) (Nat.add_comm j.val 4)

/-- the second puts them the other way round. -/
theorem catBW_lo (r : Fin 1024) (j : Fin 4) :
    val_main_v15 (F := Ideal) x0 x1 x5 x6 (ix2 r (Fin.castAdd 4 j)) = val_main_v9 (F := Ideal) x1 x5 x6 (ix2 r j) := by
  unfold val_main_v15
  exact concatenate_pair_apply_left (s₁ := S1024x4) (s₂ := S1024x4) 1 _ _ _ (ix2 r (Fin.castAdd 4 j)) rfl (ix2 r j) (fun b => match b with | ⟨0, _⟩ => rfl | ⟨1, _⟩ => rfl)

theorem catBW_hi (r : Fin 1024) (j : Fin 4) :
    val_main_v15 (F := Ideal) x0 x1 x5 x6 (ix2 r (Fin.natAdd 4 j)) = val_main_v4 (F := Ideal) x0 x5 x6 (ix2 r j) := by
  unfold val_main_v15
  exact concatenate_pair_apply_right (s₁ := S1024x4) (s₂ := S1024x4) 1 _ _ _ (ix2 r (Fin.natAdd 4 j)) rfl rfl (ix2 r j)
    (fun b hb => match b, hb with | ⟨0, _⟩, _ => rfl | ⟨1, _⟩, hb => absurd rfl hb) (Nat.add_comm j.val 4)

/-- The blended, clipped hidden value in a column of the first four: the white output weighted by the side to move and
    the black one by its complement … -/
theorem hidden_lo (r : Fin 1024) (j : Fin 4) :
    val_main_v19 (F := Ideal) x0 x1 x2 x5 x6 (ix2 r (Fin.castAdd 4 j))
      = clip01 (blend (x2 (ix2 r (0 : Fin 1))) (val_main_v4 (F := Ideal) x0 x5 x6 (ix2 r j)) (val_main_v9 (F := Ideal) x1 x5 x6 (ix2 r j))) := by
  rw [val_main_v19_apply, val_main_call0_v4_apply, val_main_call0_v3_apply, val_main_cst_1_apply,
    val_main_call0_v2_apply, val_main_call0_v1_apply, val_main_call0_v0_apply, val_main_cst_0_apply,
    val_main_v18_apply, val_main_v12_apply, val_main_v17_apply, val_main_v11_apply, val_main_v16_apply,
    val_main_v14_apply, val_main_v13_apply, val_main_cst_apply, catWB_lo, catBW_lo]
  have e : idx_main_v11 (ix2 r (Fin.castAdd 4 j)) = ix2 r (0 : Fin 1) := funext fun a => by match a with | ⟨0, _⟩ => rfl | ⟨1, _⟩ => rfl
  have e' : idx_main_v16 (ix2 r (Fin.castAdd 4 j)) = ix2 r (0 : Fin 1) := funext fun a => by match a with | ⟨0, _⟩ => rfl | ⟨1, _⟩ => rfl
  rw [e, e']
  rfl

/-- … and in a column of the last four, the other way round. -/
theorem hidden_hi (r : Fin 1024) (j : Fin 4) :
    val_main_v19 (F := Ideal) x0 x1 x2 x5 x6 (ix2 r (Fin.natAdd 4 j))
      = clip01 (blend (x2 (ix2 r (0 : Fin 1))) (val_main_v9 (F := Ideal) x1 x5 x6 (ix2 r j)) (val_main_v4 (F := Ideal) x0 x5 x6 (ix2 r j))) := by
  rw [val_main_v19_apply, val_main_call0_v4_apply, val_main_call0_v3_apply, val_main_cst_1_apply,
    val_main_call0_v2_apply, val_main_call0_v1_apply, val_main_call0_v0_apply, val_main_cst_0_apply,
    val_main_v18_apply, val_main_v12_apply, val_main_v17_apply, val_main_v11_apply, val_main_v16_apply,
    val_main_v14_apply, val_main_v13_apply, val_main_cst_apply, catWB_hi, catBW_hi]
  have e : idx_main_v11 (ix2 r (Fin.natAdd 4 j)) = ix2 r (0 : Fin 1) := funext fun a => by match a with | ⟨0, _⟩ => rfl | ⟨1, _⟩ => rfl
  have e' : idx_main_v16 (ix2 r (Fin.natAdd 4 j)) = ix2 r (0 : Fin 1) := funext fun a => by match a with | ⟨0, _⟩ => rfl | ⟨1, _⟩ => rfl
  rw [e, e']
  rfl

/-- Unit `n` of the second layer: the one sum over eight inputs is the sum over the first four plus the sum over the
    last four. -/
theorem second (r : Fin 1024) (n : Fin 8) :
    val_main_v25 (F := Ideal) x0 x1 x2 x5 x6 x7 x8 (ix2 r n)
      = layer2 (x2 (ix2 r (0 : Fin 1))) (fun j => val_main_v4 (F := Ideal) x0 x5 x6 (ix2 r j)) (fun j => val_main_v9 (F := Ideal) x1 x5 x6 (ix2 r j))
          (fun n k => x7 (ix2 n k)) (fun n => x8 (ix1 n)) n := by
  rw [val_main_v25_apply, val_main_call1_v4_apply, val_main_call1_v3_apply, val_main_cst_3_apply,
    val_main_call1_v2_apply, val_main_call1_v1_apply, val_main_call1_v0_apply, val_main_cst_2_apply,
    val_main_v24_apply, val_main_v21_apply, val_main_v23_apply, val_main_v22_apply]
  have e3 : idx_main_v22 (idx_main_v23 (ix2 r n)) = ix1 n := funext fun a => by match a with | ⟨0, _⟩ => rfl
  rw [e3]
  unfold layer2
  refine congrArg (fun z => clip01 (z + x8 (ix1 n))) ?_
  refine (Fin.sum_univ_add (fun k : Fin (4 + 4) => val_main_v19 (F := Ideal) x0 x1 x2 x5 x6 (lidx_main_v21 (ix2 r n) k)
    * val_main_v20 (F := Ideal) x7 (ridx_main_v21 (ix2 r n) k))).trans ?_
  refine congrArg₂ (· + ·) (Finset.sum_congr rfl fun j _ => ?_) (Finset.sum_congr rfl fun j _ => ?_)
  · have el : lidx_main_v21 (ix2 r n) (Fin.castAdd 4 j) = ix2 r (Fin.castAdd 4 j) := funext fun a => by match a with | ⟨0, _⟩ => rfl | ⟨1, _⟩ => rfl
    have er : idx_main_v20 (ridx_main_v21 (ix2 r n) (Fin.castAdd 4 j)) = ix2 n (Fin.castAdd 4 j) := funext fun a => by match a with | ⟨0, _⟩ => rfl | ⟨1, _⟩ => rfl
    rw [val_main_v20_apply, el, er, hidden_lo]
  · have el : lidx_main_v21 (ix2 r n) (Fin.natAdd 4 j) = ix2 r (Fin.natAdd 4 j) := funext fun a => by match a with | ⟨0, _⟩ => rfl | ⟨1, _⟩ => rfl
    have er : idx_main_v20 (ridx_main_v21 (ix2 r n) (Fin.natAdd 4 j)) = ix2 n (Fin.natAdd 4 j) := funext fun a => by match a with | ⟨0, _⟩ => rfl | ⟨1, _⟩ => rfl
    rw [val_main_v20_apply, el, er, hidden_hi]

/-- The output unit at position `r`. -/
theorem outU (r : Fin 1024) :
    val_main_v30 (F := Ideal) x0 x1 x2 x5 x6 x7 x8 x9 x10 (ix2 r (0 : Fin 1))
      = outUnit (x2 (ix2 r (0 : Fin 1))) (fun j => val_main_v4 (F := Ideal) x0 x5 x6 (ix2 r j)) (fun j => val_main_v9 (F := Ideal) x1 x5 x6 (ix2 r j))
          (fun n k => x7 (ix2 n k)) (fun n => x8 (ix1 n)) (fun n => x9 (ix2 (0 : Fin 1) n)) (x10 (ix1 (0 : Fin 1))) := by
  rw [val_main_v30_apply, val_main_v27_apply, val_main_v29_apply, val_main_v28_apply]
  have e3 : idx_main_v28 (idx_main_v29 (ix2 r (0 : Fin 1))) = ix1 (0 : Fin 1) := funext fun a => by match a with | ⟨0, _⟩ => rfl
  rw [e3]
  unfold outUnit
  refine congrArg (· + x10 (ix1 (0 : Fin 1))) (Finset.sum_congr rfl fun n _ => ?_)
  have el : lidx_main_v27 (ix2 r (0 : Fin 1)) n = ix2 r n := funext fun a => by match a with | ⟨0, _⟩ => rfl | ⟨1, _⟩ => rfl
  have er : idx_main_v26 (ridx_main_v27 (ix2 r (0 : Fin 1)) n) = ix2 (0 : Fin 1) n := funext fun a => by match a with | ⟨0, _⟩ => rfl | ⟨1, _⟩ => rfl
  rw [val_main_v26_apply, el, er, second]

/-- The host's `1 / (1 + e^(-o/400))` of the model output is the logistic over the scale. -/
theorem sig_model (i : S1024x1.Idx) :
    val_main_v38 (F := Ideal) x0 x1 x2 x5 x6 x7 x8 x9 x10 i
      = sigm (val_main_v30 (F := Ideal) x0 x1 x2 x5 x6 x7 x8 x9 x10 i) := by
  rw [val_main_v38_apply, val_main_v37_apply, val_main_cst_6_apply, val_main_v36_apply, val_main_v35_apply,
    val_main_cst_5_apply, val_main_v34_apply, val_main_v33_apply, val_main_v32_apply, val_main_v31_apply,
    val_main_cst_4_apply]
  exact logistic_words _

/-- The same of the recorded score. -/
theorem sig_target (i : S1024x1.Idx) : val_main_v46 (F := Ideal) x3 i = sigm (x3 i) := by
  rw [val_main_v46_apply, val_main_v45_apply, val_main_cst_9_apply, val_main_v44_apply, val_main_v43_apply,
    val_main_cst_8_apply, val_main_v42_apply, val_main_v41_apply, val_main_v40_apply, val_main_v39_apply,
    val_main_cst_7_apply]
  exact logistic_words _

/-- The reference's result array is the specification's loss of every position. -/
theorem result_eq :
    val_main_v55 (F := Ideal) x0 x1 x2 x3 x4 x5 x6 x7 x8 x9 x10
      = fun (i : S1024x1.Idx) => lossArr x0 x1 x2 x3 x4 x5 x6 x7 x8 x9 x10 ⟨(i 0).val, idx2_lt0 i⟩ := by
  funext i
  obtain ⟨r, u, rfl⟩ : ∃ (r : Fin 1024) (u : Fin 1), i = ix2 r u := ⟨i 0, i 1, eq_ix2 i⟩
  obtain rfl : u = 0 := Subsingleton.elim _ _
  rw [val_main_v55_apply, val_main_v52_apply, val_main_v54_apply, val_main_v51_apply, val_main_cst_10_apply,
    val_main_v53_apply, val_main_cst_11_apply, val_main_v48_apply, val_main_v47_apply, val_main_v50_apply,
    val_main_v49_apply, sig_model, sig_target, outU]
  have hw : (fun j => val_main_v4 (F := Ideal) x0 x5 x6 (ix2 r j)) = layer1 (fun k => x0 (ix2 r k)) (fun j k => x5 (ix2 j k)) (fun j => x6 (ix1 j)) :=
    funext fun j => first_white x0 x5 x6 r j
  have hk : (fun j => val_main_v9 (F := Ideal) x1 x5 x6 (ix2 r j)) = layer1 (fun k => x1 (ix2 r k)) (fun j k => x5 (ix2 j k)) (fun j => x6 (ix1 j)) :=
    funext fun j => first_black x1 x5 x6 r j
  rw [hw, hk]
  rfl

end Cert.ReferenceIdeal.RefValue

end
-- ==== Proof.lean ====
/-
  The certificate's claim, assembled.

  The kernel scores 1024 positions with a small network and returns each position's loss against a recorded score. It
  walks the 81920 input features in ten blocks of 8192, carrying the first layer's two 256 × 4 accumulators from block
  to block, and evaluates the rest of the network on a batch block's positions after its last feature block. The
  reference computes the same network in one piece. Over the extended reals both end with the same array: position
  `r` holds `lossArr … r` (the specification's loss of row `r` of the arguments), because a sum over 81920 features is the
  sum of its ten blocks' sums and a sum over eight inputs is the sum over the first four plus the sum over the last four;
  nothing else distinguishes the two programs, and neither law needs the inputs to be finite, so the precondition is
  only carried, never opened.

  The three frame claims are the programs' runs with the results dropped; the idealization rewrote nothing, so
  `preserves` is trivial; `algebraic` sets the kernel's run (its result array named as a function of the arguments)
  beside the reference's run and rewrites the reference's arguments to the kernel's by their agreement.
-/
import proofs.«136821_j16990890623528_2_alg».proof.Defs
import proofs.«136821_j16990890623528_2_alg».proof.Proof.Gen.Kernel
import proofs.«136821_j16990890623528_2_alg».proof.Proof.Gen.Kernel.Frame
import proofs.«136821_j16990890623528_2_alg».proof.Proof.Gen.KernelIdeal
import proofs.«136821_j16990890623528_2_alg».proof.Proof.Gen.KernelIdeal.Frame
import proofs.«136821_j16990890623528_2_alg».proof.Proof.Gen.KernelIdeal.Value
import proofs.«136821_j16990890623528_2_alg».proof.Proof.Gen.ReferenceIdeal
import proofs.«136821_j16990890623528_2_alg».proof.Proof.Gen.ReferenceIdeal.Run
import proofs.«136821_j16990890623528_2_alg».proof.Proof.Gen.ReferenceIdeal.Read
import proofs.«136821_j16990890623528_2_alg».proof.Proof.Gen.Pre_finite_inputs
import proofs.«136821_j16990890623528_2_alg».proof.Proof.KernelValue
import proofs.«136821_j16990890623528_2_alg».proof.Proof.RefValue
import Idealize.ShloMosaic.Adequacy
import Idealize.ShloMosaic.Init

noncomputable section

namespace Cert.Proof

open Idealize.ShloMosaic Idealize.SL.Sem

/-- The word-level kernel runs, faults nowhere, and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eleven arguments both programs end, with equal result arrays: each holds the
    specification's loss of every position. -/
theorem algebraic : Cert.algebraic_KernelIdeal_ReferenceIdeal := by
  intro m ρ m' ρ' _ hagree
  refine ⟨fun c => Cert.KernelIdeal.Result.lossOfArgs m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v55_eq, Cert.ReferenceIdeal.RefValue.result_eq, h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
